-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S768x384 : Shape := ⟨2, ![768, 384]⟩
abbrev S384 : Shape := ⟨1, ![384]⟩
abbrev S384x1 : Shape := ⟨2, ![384, 1]⟩
abbrev S1 : Shape := ⟨1, ![1]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S768x384 : S_.BroadcastsInDim S768x384 (![] : Fin 0 → Fin S768x384.rank)
  reducesTo_S768x384_S_d0_1 : S768x384.ReducesTo [0, 1] S_
  bcast_S_S384 : S_.BroadcastsInDim S384 (![] : Fin 0 → Fin S384.rank)
  reducesTo_S384_S_d0 : S384.ReducesTo [0] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S384x1 .f32) (main_arg8 : FVec F S1 .f32) (main_v33 : IVec S_ 1) : IVec S_ 1 :=
  let main_v34 : FVec F S384x1 .f32 := Host.absf main_arg7
  let main_cst_12 : FVec F S_ .f32 := constant S_ .f32 0x7F800000#32
  let main_v35 : FVec F S384x1 .f32 := broadcastInDim S384x1 ![] bcast_S_S384x1 main_cst_12
  let main_v36 : IVec S384x1 1 := cmpf .olt main_v34 main_v35
  let main_c_13 : IVec S_ 1 := constantI S_ 1 1#1
  let main_v37 : IVec S_ 1 := (fun x v => Host.reduce IntOp.andi x v reducesTo_S384x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1 .f32) (main_arg5 : FVec F S768x384 .f32) (main_arg6 : FVec F S384 .f32) (main_arg7 : FVec F S384x1 .f32) (main_arg8 : FVec F S1 .f32) (main_v13 : IVec S_ 1) (main_v16 : IVec S384x1 1) : IVec S_ 1 :=
  let main_c_5 : IVec S_ 1 := constantI S_ 1 1#1
  let main_v17 : IVec S_ 1 := (fun x v => Host.reduce IntOp.andi x v reducesTo_S384x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S768x384 .f32 := Host.absf main_arg5
  let main_cst_8 : FVec F S_ .f32 := constant S_ .f32 0x7F800000#32
  let main_v25 : FVec F S768x384 .f32 := broadcastInDim S768x384 ![] bcast_S_S768x384 main_cst_8
  let main_v26 : IVec S768x384 1 := cmpf .olt main_v24 main_v25
  let main_c_9 : IVec S_ 1 := constantI S_ 1 1#1
  let main_v27 : IVec S_ 1 := (fun x v => Host.reduce IntOp.andi x v reducesTo_S768x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_v33

def fn {F : FTy → Type} [FloatOps F] (main_arg0 : FVec F S32x1024x768 .f32) (main_arg1 : FVec F S768x384 .f32) (main_arg2 : FVec F S384 .f32) (main_arg3 : FVec F S384x1 .f32) (main_arg4 : FVec F S1 .f32) (main_arg5 : FVec F S768x384 .f32) (main_arg6 : FVec F S384 .f32) (main_arg7 : FVec F S384x1 .f32) (main_arg8 : FVec F S1 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S768x384 .f32 := Host.absf main_arg1
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x1 .f32 := Host.absf main_arg3
  let main_cst_4 : FVec F S_ .f32 := constant S_ .f32 0x7F800000#32
  let main_v15 : FVec F S384x1 .f32 := broadcastInDim S384x1 ![] bcast_S_S384x1 main_cst_4
  let main_v16 : IVec S384x1 1 := cmpf .olt main_v14 main_v15
  fn_part1 (F := F) main_arg4 main_arg5 main_arg6 main_arg7 main_arg8 main_v13 main_v16
-- ==== Kernel.lean ====
abbrev S32x1024x768 : Shape := ⟨3, ![32, 1024, 768]⟩
abbrev S768x384 : Shape := ⟨2, ![768, 384]⟩
abbrev S384 : Shape := ⟨1, ![384]⟩
abbrev S384x1 : Shape := ⟨2, ![384, 1]⟩
abbrev S1 : Shape := ⟨1, ![1]⟩
abbrev S768x768 : Shape := ⟨2, ![768, 768]⟩
abbrev S768 : Shape := ⟨1, ![768]⟩
abbrev S1x768 : Shape := ⟨2, ![1, 768]⟩
abbrev S1x384 : Shape := ⟨2, ![1, 384]⟩
abbrev S1x1 : Shape := ⟨2, ![1, 1]⟩
abbrev S32x1 : Shape := ⟨2, ![32, 1]⟩
abbrev S8x256x768 : Shape := ⟨3, ![8, 256, 768]⟩
abbrev S8x1 : Shape := ⟨2, ![8, 1]⟩
abbrev S2048x768 : Shape := ⟨2, ![2048, 768]⟩
abbrev S2048x384 : Shape := ⟨2, ![2048, 384]⟩
abbrev S2048 : Shape := ⟨1, ![2048]⟩
abbrev S2048x1 : Shape := ⟨2, ![2048, 1]⟩
abbrev S8x256x1 : Shape := ⟨3, ![8, 256, 1]⟩
abbrev S32 : Shape := ⟨1, ![32]⟩

abbrev nBuf : Space → Nat
  | .hbm => 18
  | .vmem => 12
  | .smem => 0
  | _ => 0

abbrev bufTy : (tb : Table) → Fin (tcTables nBuf tb) → BufTy
  | .hbm, ⟨0, _⟩ => ⟨S32x1024x768, .f32⟩
  | .hbm, ⟨1, _⟩ => ⟨S768x384, .f32⟩
  | .hbm, ⟨2, _⟩ => ⟨S384, .f32⟩
  | .hbm, ⟨3, _⟩ => ⟨S384x1, .f32⟩
  | .hbm, ⟨4, _⟩ => ⟨S1, .f32⟩
  | .hbm, ⟨5, _⟩ => ⟨S768x384, .f32⟩
  | .hbm, ⟨6, _⟩ => ⟨S384, .f32⟩
  | .hbm, ⟨7, _⟩ => ⟨S384x1, .f32⟩
  | .hbm, ⟨8, _⟩ => ⟨S1, .f32⟩
  | .hbm, ⟨9, _⟩ => ⟨S768x768, .f32⟩
  | .hbm, ⟨10, _⟩ => ⟨S768, .f32⟩
  | .hbm, ⟨11, _⟩ => ⟨S1x768, .f32⟩
  | .hbm, ⟨12, _⟩ => ⟨S1x384, .f32⟩
  | .hbm, ⟨13, _⟩ => ⟨S1x384, .f32⟩
  | .hbm, ⟨14, _⟩ => ⟨S1x1, .f32⟩
  | .hbm, ⟨15, _⟩ => ⟨S1x1, .f32⟩
  | .hbm, ⟨16, _⟩ => ⟨S32x1, .f32⟩
  | .hbm, ⟨17, _⟩ => ⟨S32, .f32⟩
  | .local _ .vmem, ⟨0, _⟩ => ⟨S8x256x768, .f32⟩
  | .local _ .vmem, ⟨1, _⟩ => ⟨S8x256x768, .f32⟩
  | .local _ .vmem, ⟨2, _⟩ => ⟨S768x768, .f32⟩
  | .local _ .vmem, ⟨3, _⟩ => ⟨S1x768, .f32⟩
  | .local _ .vmem, ⟨4, _⟩ => ⟨S1x384, .f32⟩
  | .local _ .vmem, ⟨5, _⟩ => ⟨S1x1, .f32⟩
  | .local _ .vmem, ⟨6, _⟩ => ⟨S1x384, .f32⟩
  | .local _ .vmem, ⟨7, _⟩ => ⟨S1x1, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | .local _ .vmem, ⟨11, _⟩ => ⟨S8x1, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_29 : BitVec 32 := 0#32
  let v58 : BitVec 1 := Scalar.cmpi .ne v57 c0_i32_29
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  concatenates_S768x384_S768x384_S768x768_d1 : Shape.Concatenates [S768x384, S768x384] S768x768 1
  concatenates_S384_S384_S768_d0 : Shape.Concatenates [S384, S384] S768 0
  shapeCasts_S768_S1x768 : S768.ShapeCasts S1x768
  transposes_S384x1_S1x384_1_0 : S384x1.Transposes [1, 0] S1x384
  shapeCasts_S1_S1x1 : S1.ShapeCasts S1x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x256x768_S8x256x768_0_0_0 : ∀ a, (![0, 0, 0] : Fin 3 → Nat) a + S8x256x768.size a ≤ S8x256x768.size a
  h_S8x256x768 : 0 < S8x256x768.numel
  shapeCasts_S8x256x768_S2048x768 : S8x256x768.ShapeCasts S2048x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  slices_S2048x768_o0_0_S2048x384 : S2048x768.Slices ![0, 0] S2048x384
  slices_S2048x768_o0_384_S2048x384 : S2048x768.Slices ![0, 384] S2048x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x384_S2048x384 : S1x384.Broadcasts S2048x384
  reduces_S2048x384_S2048 : S2048x384.Reduces [1] S2048
  shapeCasts_S2048_S2048x1 : S2048.ShapeCasts S2048x1
  broadcasts_S1x1_S2048x1 : S1x1.Broadcasts S2048x1
  shapeCasts_S2048x1_S8x256x1 : S2048x1.ShapeCasts S8x256x1
  reduces_S8x256x1_S8x1 : S8x256x1.Reduces [1] S8x1
  shapeCasts_S32x1_S32 : S32x1.ShapeCasts S32
  dot_S2048x768_S768x768_S2048x768_1_0_0_1_n_n_wf : DotDims.WF S2048x768 S768x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x768.size a ≤ S32x1024x768.size a
  hwx0_0 : ∀ i : grid0.Coords, EltTy.bits .f32 = 32 ∨ (Rect.block (s := S32x1024x768) S8x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S32x1.size a
  hwx0_7 : ∀ i : grid0.Coords, EltTy.bits .f32 = 32 ∨ (Rect.block (s := S32x1) S8x1.size (cc0_transform_7 i) (hinb0_7 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

abbrev win0_0 : Pipeline.Window sig grid0 :=
  Pipeline.Window.ofSpec (Memref.whole main_arg0) S8x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S8x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S32x1024x768 : Shape := ⟨3, ![32, 1024, 768]⟩
abbrev S768x384 : Shape := ⟨2, ![768, 384]⟩
abbrev S384 : Shape := ⟨1, ![384]⟩
abbrev S384x1 : Shape := ⟨2, ![384, 1]⟩
abbrev S1 : Shape := ⟨1, ![1]⟩
abbrev S32x1024x384 : Shape := ⟨3, ![32, 1024, 384]⟩
abbrev S1x1x384 : Shape := ⟨3, ![1, 1, 384]⟩
abbrev S_ : Shape := ⟨0, ![]⟩
abbrev S32x1024x1 : Shape := ⟨3, ![32, 1024, 1]⟩
abbrev S1x1x1 : Shape := ⟨3, ![1, 1, 1]⟩
abbrev S32 : Shape := ⟨1, ![32]⟩

abbrev nBuf : Space → Nat
  | .hbm => 48
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S768x384, .f32⟩
  | .hbm, ⟨2, _⟩ => ⟨S384, .f32⟩
  | .hbm, ⟨3, _⟩ => ⟨S384x1, .f32⟩
  | .hbm, ⟨4, _⟩ => ⟨S1, .f32⟩
  | .hbm, ⟨5, _⟩ => ⟨S768x384, .f32⟩
  | .hbm, ⟨6, _⟩ => ⟨S384, .f32⟩
  | .hbm, ⟨7, _⟩ => ⟨S384x1, .f32⟩
  | .hbm, ⟨8, _⟩ => ⟨S1, .f32⟩
  | .hbm, ⟨9, _⟩ => ⟨S32x1024x384, .f32⟩
  | .hbm, ⟨10, _⟩ => ⟨S1x1x384, .f32⟩
  | .hbm, ⟨11, _⟩ => ⟨S32x1024x384, .f32⟩
  | .hbm, ⟨12, _⟩ => ⟨S32x1024x384, .f32⟩
  | .hbm, ⟨13, _⟩ => ⟨S_, .f32⟩
  | .hbm, ⟨14, _⟩ => ⟨S32x1024x384, .f32⟩
  | .hbm, ⟨15, _⟩ => ⟨S32x1024x384, .f32⟩
  | .hbm, ⟨16, _⟩ => ⟨S32x1024x1, .f32⟩
  | .hbm, ⟨17, _⟩ => ⟨S1x1x1, .f32⟩
  | .hbm, ⟨18, _⟩ => ⟨S32x1024x1, .f32⟩
  | .hbm, ⟨19, _⟩ => ⟨S32x1024x1, .f32⟩
  | .hbm, ⟨20, _⟩ => ⟨S_, .f32⟩
  | .hbm, ⟨21, _⟩ => ⟨S32x1024x1, .f32⟩
  | .hbm, ⟨22, _⟩ => ⟨S32x1024x1, .f32⟩
  | .hbm, ⟨23, _⟩ => ⟨S32x1024x384, .f32⟩
  | .hbm, ⟨24, _⟩ => ⟨S1x1x384, .f32⟩
  | .hbm, ⟨25, _⟩ => ⟨S32x1024x384, .f32⟩
  | .hbm, ⟨26, _⟩ => ⟨S32x1024x384, .f32⟩
  | .hbm, ⟨27, _⟩ => ⟨S_, .f32⟩
  | .hbm, ⟨28, _⟩ => ⟨S32x1024x384, .f32⟩
  | .hbm, ⟨29, _⟩ => ⟨S32x1024x384, .f32⟩
  | .hbm, ⟨30, _⟩ => ⟨S32x1024x1, .f32⟩
  | .hbm, ⟨31, _⟩ => ⟨S1x1x1, .f32⟩
  | .hbm, ⟨32, _⟩ => ⟨S32x1024x1, .f32⟩
  | .hbm, ⟨33, _⟩ => ⟨S32x1024x1, .f32⟩
  | .hbm, ⟨34, _⟩ => ⟨S32x1024x1, .f32⟩
  | .hbm, ⟨35, _⟩ => ⟨S32x1024x1, .f32⟩
  | .hbm, ⟨36, _⟩ => ⟨S_, .f32⟩
  | .hbm, ⟨37, _⟩ => ⟨S32x1024x1, .f32⟩
  | .hbm, ⟨38, _⟩ => ⟨S32x1024x1, .f32⟩
  | .hbm, ⟨39, _⟩ => ⟨S_, .f32⟩
  | .hbm, ⟨40, _⟩ => ⟨S32x1024x1, .f32⟩
  | .hbm, ⟨41, _⟩ => ⟨S32x1024x1, .f32⟩
  | .hbm, ⟨42, _⟩ => ⟨S32x1024x1, .f32⟩
  | .hbm, ⟨43, _⟩ => ⟨S_, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]

class Facts₀ : Prop where
  bcast_S384_S1x1x384_2 : S384.BroadcastsInDim S1x1x384 (![2] : Fin 1 → Fin S1x1x384.rank)
  bcast_S1x1x384_S32x1024x384_0_1_2 : S1x1x384.BroadcastsInDim S32x1024x384 (![0, 1, 2] : Fin 3 → Fin S32x1024x384.rank)
  bcast_S_S32x1024x384 : S_.BroadcastsInDim S32x1024x384 (![] : Fin 0 → Fin S32x1024x384.rank)
  bcast_S1_S1x1x1_2 : S1.BroadcastsInDim S1x1x1 (![2] : Fin 1 → Fin S1x1x1.rank)
  bcast_S1x1x1_S32x1024x1_0_1_2 : S1x1x1.BroadcastsInDim S32x1024x1 (![0, 1, 2] : Fin 3 → Fin S32x1024x1.rank)
  bcast_S_S32x1024x1 : S_.BroadcastsInDim S32x1024x1 (![] : Fin 0 → Fin S32x1024x1.rank)
  reducesTo_S32x1024x1_S32_d1_2 : S32x1024x1.ReducesTo [1, 2] S32
  h_S_ : 0 < S_.numel
  dot_S32x1024x768_S768x384_S32x1024x384_2_0_01_1_n_n_wf : DotDims.WF S32x1024x768 S768x384 S32x1024x384 [2] [0] [0, 1] [1] [] []
  dot_S32x1024x384_S384x1_S32x1024x1_2_0_01_1_n_n_wf : DotDims.WF S32x1024x384 S384x1 S32x1024x1 [2] [0] [0, 1] [1] [] []

variable [Facts₀]

def dot_S32x1024x768_S768x384_S32x1024x384_2_0_01_1_n_n : DotDims S32x1024x768 S768x384 S32x1024x384 where
  lhsContracting := [2]
  rhsContracting := [0]
  lhsNonContracting := [0, 1]
  rhsNonContracting := [1]
  lhsBatch := []
  rhsBatch := []
  wf := dot_S32x1024x768_S768x384_S32x1024x384_2_0_01_1_n_n_wf
def dot_S32x1024x384_S384x1_S32x1024x1_2_0_01_1_n_n : DotDims S32x1024x384 S384x1 S32x1024x1 where
  lhsContracting := [2]
  rhsContracting := [0]
  lhsNonContracting := [0, 1]
  rhsNonContracting := [1]
  lhsBatch := []
  rhsBatch := []
  wf := dot_S32x1024x384_S384x1_S32x1024x1_2_0_01_1_n_n_wf

class Facts : Prop extends Facts₀ where

variable [Facts]
-- ==== Proof.WeightedMean.lean ====
/-
  The function both programs compute, stated once over the nine argument arrays, and the arithmetic of summing a
  row of 1024 tokens four blocks of 256 at a time.

  For batch row `b` and token `n` a two-layer perceptron is applied twice to the 768 features `x[b, n, ·]`:
  a hidden layer of 384 rectified units `max (x · W + bias) 0`, then one output unit `hidden · V + c`. The first
  perceptron's output is rectified again (the score); the second's goes through the logistic function (the
  weight, in (0, 1)). The result for row `b` is the weighted mean of the scores,
  `(∑ n, score · weight) / (∑ n, weight)`, all operations being the exact ones on the extended reals.

  A sum over the 1024 tokens taken as `0 + s₀ + s₁ + s₂ + s₃` of its four block sums is the same extended real:
  addition there is commutative and associative with no side condition, so no input needs to be finite.
-/
import Idealize.ShloMosaic.PureOps.Ideal
import Idealize.ShloMosaic.PureOps.Ideal.Laws
import Idealize.ShloMosaic.Lib.ValueIdx

noncomputable section

namespace Cert.WeightedMean

open Idealize.ShloMosaic Idealize.ShloMosaic.ValueIdx

/-- The word `+0.0`, the lower bound of a rectified unit (it denotes the extended real `0`). -/
abbrev zero : EReal := Ideal.ofBits .f32 0x00000000#32

/-- Hidden unit `h` at token `(b, n)`: the features times column `h` of `W`, plus the bias, rectified. -/
def hidden (x : (⟨3, ![32, 1024, 768]⟩ : Shape).Idx → EReal) (W : (⟨2, ![768, 384]⟩ : Shape).Idx → EReal)
    (bias : (⟨1, ![384]⟩ : Shape).Idx → EReal) (b : Fin 32) (n : Fin 1024) (h : Fin 384) : EReal :=
  max ((∑ e : Fin 768, x (ix3 b n e) * W (ix2 e h)) + bias (ix1 h)) zero

/-- The perceptron's one output at token `(b, n)` before its last nonlinearity. -/
def pre (x : (⟨3, ![32, 1024, 768]⟩ : Shape).Idx → EReal) (W : (⟨2, ![768, 384]⟩ : Shape).Idx → EReal)
    (bias : (⟨1, ![384]⟩ : Shape).Idx → EReal) (V : (⟨2, ![384, 1]⟩ : Shape).Idx → EReal)
    (c : (⟨1, ![1]⟩ : Shape).Idx → EReal) (b : Fin 32) (n : Fin 1024) : EReal :=
  (∑ h : Fin 384, hidden x W bias b n h * V (ix2 h (0 : Fin 1))) + c (ix1 (0 : Fin 1))

/-- The score of token `(b, n)`: the first perceptron's output, rectified. -/
def score (x : (⟨3, ![32, 1024, 768]⟩ : Shape).Idx → EReal) (W : (⟨2, ![768, 384]⟩ : Shape).Idx → EReal)
    (bias : (⟨1, ![384]⟩ : Shape).Idx → EReal) (V : (⟨2, ![384, 1]⟩ : Shape).Idx → EReal)
    (c : (⟨1, ![1]⟩ : Shape).Idx → EReal) (b : Fin 32) (n : Fin 1024) : EReal :=
  max (pre x W bias V c b n) zero

/-- The weight of token `(b, n)`: the logistic function `1 / (1 + e⁻ʸ)` of the second perceptron's output. -/
def weight (x : (⟨3, ![32, 1024, 768]⟩ : Shape).Idx → EReal) (W : (⟨2, ![768, 384]⟩ : Shape).Idx → EReal)
    (bias : (⟨1, ![384]⟩ : Shape).Idx → EReal) (V : (⟨2, ![384, 1]⟩ : Shape).Idx → EReal)
    (c : (⟨1, ![1]⟩ : Shape).Idx → EReal) (b : Fin 32) (n : Fin 1024) : EReal :=
  Ideal.logistic (pre x W bias V c b n)

/-- The weighted mean of the scores of batch row `i`. -/
def mean (x : (⟨3, ![32, 1024, 768]⟩ : Shape).Idx → EReal)
    (Ws1 : (⟨2, ![768, 384]⟩ : Shape).Idx → EReal) (bs1 : (⟨1, ![384]⟩ : Shape).Idx → EReal)
    (Ws2 : (⟨2, ![384, 1]⟩ : Shape).Idx → EReal) (bs2 : (⟨1, ![1]⟩ : Shape).Idx → EReal)
    (Ww1 : (⟨2, ![768, 384]⟩ : Shape).Idx → EReal) (bw1 : (⟨1, ![384]⟩ : Shape).Idx → EReal)
    (Ww2 : (⟨2, ![384, 1]⟩ : Shape).Idx → EReal) (bw2 : (⟨1, ![1]⟩ : Shape).Idx → EReal) :
    (⟨1, ![32]⟩ : Shape).Idx → EReal := fun i =>
  Ideal.div (∑ n : Fin 1024, score x Ws1 bs1 Ws2 bs2 (i 0) n * weight x Ww1 bw1 Ww2 bw2 (i 0) n)
    (∑ n : Fin 1024, weight x Ww1 bw1 Ww2 bw2 (i 0) n)

/-! ## A row of 1024 tokens summed four blocks of 256 at a time -/

/-- Token `q` of block `k`. -/
def tok (k : Fin 4) (q : Fin 256) : Fin 1024 := ⟨k.val * 256 + q.val, by omega⟩

/-- The sum of a row's terms over block `k`. -/
def blockSum (f : Fin 1024 → EReal) (k : Fin 4) : EReal := ∑ q : Fin 256, f (tok k q)

/-- The running total after `j` blocks, started from `0`, each block's sum added on the right. -/
def acc (f : Fin 1024 → EReal) : ℕ → EReal
  | 0 => 0
  | j + 1 => acc f j + (if h : j < 4 then blockSum f ⟨j, h⟩ else 0)

theorem acc_zero (f : Fin 1024 → EReal) : acc f 0 = 0 := rfl

theorem acc_succ (f : Fin 1024 → EReal) (k : Fin 4) : acc f (k.val + 1) = acc f k.val + blockSum f k := by
  show acc f k.val + (if h : k.val < 4 then blockSum f ⟨k.val, h⟩ else 0) = _
  rw [dif_pos k.isLt]

/-- The 1024 tokens are the 4 × 256 pairs (block, token of the block). -/
theorem sum_tokens (f : Fin 1024 → EReal) : ∑ n : Fin 1024, f n = ∑ k : Fin 4, blockSum f k := by
  unfold blockSum
  rw [← Fintype.sum_prod_type']
  exact (Fintype.sum_equiv (finProdFinEquiv (m := 4) (n := 256)) (fun p => f (tok p.1 p.2)) f
    (fun p => congrArg f (Fin.ext (by simp [tok, finProdFinEquiv]; omega)))).symm

/-- After the four blocks the running total is the sum over the whole row. -/
theorem acc_four (f : Fin 1024 → EReal) : acc f 4 = ∑ n : Fin 1024, f n := by
  rw [sum_tokens, Fin.sum_univ_four]
  show (((0 + (if h : 0 < 4 then blockSum f ⟨0, h⟩ else 0)) + (if h : 1 < 4 then blockSum f ⟨1, h⟩ else 0))
    + (if h : 2 < 4 then blockSum f ⟨2, h⟩ else 0)) + (if h : 3 < 4 then blockSum f ⟨3, h⟩ else 0) = _
  rw [dif_pos (by decide), dif_pos (by decide), dif_pos (by decide), dif_pos (by decide), zero_add]
  rfl

end Cert.WeightedMean

end
-- ==== Proof.ReferenceMean.lean ====
/-
  The reference program, read one element at a time, is the weighted mean of the specification.

  The program applies two two-layer perceptrons to every token `x[b, n, ·]`: a hidden layer of 384 rectified units,
  then one output unit. The first perceptron's output is rectified (the score); the second's goes through
  `1 / (1 + e⁻ʸ)`, which is the logistic function by definition (the weight). Row `b` of the result is the quotient
  of two sums over the row's 1024 tokens: of score times weight, and of the weights.

  Each stage of the program is read at explicit coordinates and identified with the specification's function of the
  same name. The two sums are taken by a reduction over the axes (1, 2) of a [32, 1024, 1] array: the indices that
  reduce to row `b` are exactly `(b, n, 0)` for the 1024 tokens `n`, so each reduction is its initial value `0` plus
  a sum over `n`.
-/
import proofs.«113493_j4827543241294_2_alg».proof.Proof.Gen.ReferenceIdeal.Read
import proofs.«113493_j4827543241294_2_alg».proof.Proof.WeightedMean
import Idealize.ShloMosaic.Lib.IdealHost
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The program's composed index maps, at coordinates -/

/-- The first layer's product reads the token's feature `k` … -/
theorem lidx_v0 (b : Fin 32) (n : Fin 1024) (h : Fin 384) (k : Fin 768) :
    lidx_main_v0 (ix3 b n h) k = ix3 b n k :=
  funext fun a => Fin.ext (by match a with | ⟨0, _⟩ => rfl | ⟨1, _⟩ => rfl | ⟨2, _⟩ => rfl)

/-- … against entry `(k, h)` of the weight matrix. -/
theorem ridx_v0 (b : Fin 32) (n : Fin 1024) (h : Fin 384) (k : Fin 768) :
    ridx_main_v0 (ix3 b n h) k = ix2 k h :=
  funext fun a => Fin.ext (by match a with | ⟨0, _⟩ => rfl | ⟨1, _⟩ => rfl)

/-- The hidden layer's bias, broadcast along batch and token, is read at the unit `h`. -/
theorem idx_v2 (b : Fin 32) (n : Fin 1024) (h : Fin 384) :
    idx_main_v1 (idx_main_v2 (ix3 b n h)) = ix1 h :=
  funext fun a => Fin.ext (by match a with | ⟨0, _⟩ => rfl)

variable (x : (⟨S32x1024x768, .f32⟩ : BufTy).Contents (Elt Ideal))
  (W : (⟨S768x384, .f32⟩ : BufTy).Contents (Elt Ideal)) (bias : (⟨S384, .f32⟩ : BufTy).Contents (Elt Ideal))
  (V : (⟨S384x1, .f32⟩ : BufTy).Contents (Elt Ideal)) (c : (⟨S1, .f32⟩ : BufTy).Contents (Elt Ideal))

/-! ## The first perceptron -/

/-- The rectified hidden layer at `(b, n, h)` is the specification's hidden unit. -/
theorem hidden_at (b : Fin 32) (n : Fin 1024) (h : Fin 384) :
    val_main_v4 (F := Ideal) x W bias (ix3 b n h) = WeightedMean.hidden x W bias b n h := by
  rw [val_main_v4_apply, val_main_v3_apply, val_main_v0_apply, val_main_v2_apply, val_main_v1_apply,
    val_main_call0_v0_apply, val_main_call0_cst_apply]
  simp only [lidx_v0, ridx_v0, idx_v2, Ideal.maximumf_def, Ideal.addf_def, Ideal.ofBits_def]
  rfl

/-- The output unit's product reads hidden unit `k` of the token … -/
theorem lidx_v5 (b : Fin 32) (n : Fin 1024) (k : Fin 384) :
    lidx_main_v5 (ix3 b n (0 : Fin 1)) k = ix3 b n k :=
  funext fun a => Fin.ext (by match a with | ⟨0, _⟩ => rfl | ⟨1, _⟩ => rfl | ⟨2, _⟩ => rfl)

/-- … against entry `(k, 0)` of the output weights. -/
theorem ridx_v5 (b : Fin 32) (n : Fin 1024) (k : Fin 384) :
    ridx_main_v5 (ix3 b n (0 : Fin 1)) k = ix2 k (0 : Fin 1) :=
  funext fun a => Fin.ext (by match a with | ⟨0, _⟩ => rfl | ⟨1, _⟩ => rfl)

/-- The output unit's bias, broadcast along batch and token, is read at its one entry. -/
theorem idx_v7 (b : Fin 32) (n : Fin 1024) :
    idx_main_v6 (idx_main_v7 (ix3 b n (0 : Fin 1))) = ix1 (0 : Fin 1) :=
  funext fun a => Fin.ext (by match a with | ⟨0, _⟩ => rfl)

/-- The output unit at `(b, n, 0)`, before its nonlinearity, is the specification's pre-activation. -/
theorem pre_at (b : Fin 32) (n : Fin 1024) :
    val_main_v8 (F := Ideal) x W bias V c (ix3 b n (0 : Fin 1)) = WeightedMean.pre x W bias V c b n := by
  rw [val_main_v8_apply, val_main_v5_apply, val_main_v7_apply, val_main_v6_apply]
  simp only [lidx_v5, ridx_v5, idx_v7, hidden_at, Ideal.addf_def]
  rfl

/-- Rectified, it is the score. -/
theorem score_at (b : Fin 32) (n : Fin 1024) :
    val_main_v9 (F := Ideal) x W bias V c (ix3 b n (0 : Fin 1)) = WeightedMean.score x W bias V c b n := by
  rw [val_main_v9_apply, pre_at, val_main_call1_v0_apply, val_main_call1_cst_apply]
  simp only [Ideal.maximumf_def, Ideal.ofBits_def]
  rfl

/-! ## The second perceptron

It is the same sequence of operations as the first, applied to the other weights: its pre-activation is the first
perceptron's function at those weights. -/

/-- The second perceptron's output unit before its nonlinearity is the first's, at the second's weights. -/
theorem second_pre_eq :
    val_main_v18 (F := Ideal) x W bias V c = val_main_v8 (F := Ideal) x W bias V c := rfl

/-- The weight of token `(b, n)`: `1 / (1 + e⁻ʸ)` of the second perceptron's output `y` is the logistic function of
    `y`, the word `0x3F800000` being `1`. -/
theorem weight_at (b : Fin 32) (n : Fin 1024) :
    val_main_v24 (F := Ideal) x W bias V c (ix3 b n (0 : Fin 1)) = WeightedMean.weight x W bias V c b n := by
  rw [val_main_v24_apply, val_main_v23_apply, val_main_cst_0_apply, val_main_v22_apply, val_main_v21_apply,
    val_main_cst_apply, val_main_v20_apply, val_main_v19_apply, second_pre_eq, pre_at]
  simp only [Ideal.hostDivf_def, Ideal.addf_def, Ideal.ofBits_def, Ideal.hostUnary_exp_def, Ideal.hostNegf_def,
    Ideal.negf_def, Ideal.ofBits_one_f32]
  rfl

/-! ## A reduction over axes (1, 2) of a [32, 1024, 1] array is a sum over the row's tokens -/

/-- Dropping the token and unit axes of `(b, n, c)` leaves `b`; -/
theorem drop_row (b : Fin 32) (n : Fin 1024) (c : Fin 1) :
    reducesTo_S32x1024x1_S32_d1_2.drop (ix3 b n c) = ix1 b := by
  funext a
  match a with
  | ⟨0, _⟩ => rfl

/-- and an index that drops to `j` is `(j₀, n, 0)` for its own token coordinate `n`, the last axis having one point; -/
theorem eq_row_of_drop (i : S32x1024x1.Idx) (j : S32.Idx) (h : reducesTo_S32x1024x1_S32_d1_2.drop i = j) :
    i = ix3 (j 0) (i 1) (0 : Fin 1) := by
  subst h
  funext a
  match a with
  | ⟨0, _⟩ => rfl
  | ⟨1, _⟩ => rfl
  | ⟨2, _⟩ => exact Fin.ext (Nat.lt_one_iff.mp (i 2).isLt)

/-- The tokens of row `b`, as indices of the array: `n ↦ (b, n, 0)`, one index per token. -/
def rowEmb (b : Fin 32) : Fin 1024 ↪ S32x1024x1.Idx :=
  ⟨fun n => ix3 b n (0 : Fin 1), fun n n' h => by have := congrFun h 1; exact this⟩

/-- so the indices the reduction sums at `j` are the 1024 tokens of row `j₀`. -/
theorem filter_drop (j : S32.Idx) :
    Finset.univ.filter (fun i : S32x1024x1.Idx => reducesTo_S32x1024x1_S32_d1_2.drop i = j)
      = Finset.univ.map (rowEmb (j 0)) := by
  ext i
  simp only [Finset.mem_filter, Finset.mem_univ, true_and, Finset.mem_map, rowEmb, Function.Embedding.coeFn_mk]
  exact ⟨fun h => ⟨i 1, (eq_row_of_drop i j h).symm⟩,
    fun ⟨n, hn⟩ => hn ▸ (drop_row (j 0) n 0).trans (eq_ix1 j).symm⟩

/-- The reduction at `j` is its initial value plus the sum over the tokens `n` of the operand at `(j₀, n, 0)`. -/
theorem reduce_row (y : S32x1024x1.Idx → EReal) (init : EReal) (j : S32.Idx) :
    Ideal.hostReduceAdd reducesTo_S32x1024x1_S32_d1_2 y init j
      = init + ∑ n : Fin 1024, y (ix3 (j 0) n (0 : Fin 1)) := by
  unfold Ideal.hostReduceAdd
  rw [filter_drop, Finset.sum_map]
  rfl

/-! ## The two sums and their quotient -/

variable (Ww : (⟨S768x384, .f32⟩ : BufTy).Contents (Elt Ideal)) (bw : (⟨S384, .f32⟩ : BufTy).Contents (Elt Ideal))
  (Vw : (⟨S384x1, .f32⟩ : BufTy).Contents (Elt Ideal)) (cw : (⟨S1, .f32⟩ : BufTy).Contents (Elt Ideal))

/-- The numerator: the sum over row `j₀`'s tokens of score times weight (the initial value is the word `+0.0`, which is `0`). -/
theorem numerator_at (j : S32.Idx) :
    val_main_v26 (F := Ideal) x W bias V c Ww bw Vw cw j
      = ∑ n : Fin 1024, WeightedMean.score x W bias V c (j 0) n * WeightedMean.weight x Ww bw Vw cw (j 0) n := by
  unfold val_main_v26 Host.reduceAdd
  rw [Ideal.hostReduceAdd_def, reduce_row, val_main_cst_1_apply, Ideal.ofBits_def, Ideal.ofBits_zero_f32, zero_add]
  refine Finset.sum_congr rfl fun n _ => ?_
  rw [val_main_v25_apply, Ideal.mulf_def]
  exact congrArg₂ (· * ·) (score_at x W bias V c (j 0) n) (weight_at x Ww bw Vw cw (j 0) n)

/-- The denominator: the sum over row `j₀`'s tokens of the weights. -/
theorem denominator_at (j : S32.Idx) :
    val_main_v27 (F := Ideal) x Ww bw Vw cw j = ∑ n : Fin 1024, WeightedMean.weight x Ww bw Vw cw (j 0) n := by
  unfold val_main_v27 Host.reduceAdd
  rw [Ideal.hostReduceAdd_def, reduce_row, val_main_cst_2_apply, Ideal.ofBits_def, Ideal.ofBits_zero_f32, zero_add]
  exact Finset.sum_congr rfl fun n _ => weight_at x Ww bw Vw cw (j 0) n

/-- The program's last stage, as a function of its nine arguments, is the specification's weighted mean. -/
theorem last_stage_eq_mean (x0 : (⟨S32x1024x768, .f32⟩ : BufTy).Contents (Elt Ideal))
    (x1 : (⟨S768x384, .f32⟩ : BufTy).Contents (Elt Ideal)) (x2 : (⟨S384, .f32⟩ : BufTy).Contents (Elt Ideal))
    (x3 : (⟨S384x1, .f32⟩ : BufTy).Contents (Elt Ideal)) (x4 : (⟨S1, .f32⟩ : BufTy).Contents (Elt Ideal))
    (x5 : (⟨S768x384, .f32⟩ : BufTy).Contents (Elt Ideal)) (x6 : (⟨S384, .f32⟩ : BufTy).Contents (Elt Ideal))
    (x7 : (⟨S384x1, .f32⟩ : BufTy).Contents (Elt Ideal)) (x8 : (⟨S1, .f32⟩ : BufTy).Contents (Elt Ideal)) :
    Cert.ReferenceIdeal.Read.val_main_v28 (F := Ideal) x0 x1 x2 x3 x4 x5 x6 x7 x8
      = Cert.WeightedMean.mean x0 x1 x2 x3 x4 x5 x6 x7 x8 := by
  funext i
  rw [val_main_v28_apply, numerator_at, denominator_at, Ideal.hostDivf_def]
  rfl

end Cert.ReferenceIdeal.RefValue

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.TokenTerms.lean ====
/-
  The body's arithmetic read entry by entry on the extended reals.

  One grid point works on a block of 8 batch rows by 256 tokens, listed as 2048 rows: row `p · 256 + q` is token
  `q` of batch row `p`. The first stage is ONE matrix product with the two hidden layers' weights side by side
  (768 columns: the score perceptron's 384, then the weight perceptron's 384), a bias row and a rectifier; the left
  half of its columns feeds the score, the right half the weight. The second stage multiplies a half, lane by lane,
  by a row of output weights and sums over the 384 lanes. The per-row scores times weights, and the weights, are then
  summed over the 256 tokens of each batch row and added to the running totals.

  A change of float format is the identity here, so the two narrowings before the product disappear.
-/
import proofs.«113493_j4827543241294_2_alg».proof.Proof.Gen.KernelIdeal.Skeleton
import proofs.«113493_j4827543241294_2_alg».proof.Proof.LibLayout
import proofs.«113493_j4827543241294_2_alg».proof.Proof.WeightedMean
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Terms

open Idealize.ShloMosaic Idealize.ShloMosaic.ValueIdx Cert.KernelIdeal Cert.KernelIdeal.Gen Cert.WeightedMean

/-- The row of the flattened [2048, ·] block that holds token `q` of the block's batch row `p`. -/
def row (p : Fin 8) (q : Fin 256) : Fin 2048 := ⟨p.val * 256 + q.val, by omega⟩

/-- The [8, 256, 768] block listed as 2048 rows: row `p · 256 + q` is token `q` of batch row `p`. -/
theorem flatten_apply (v3 : FVec Ideal S8x256x768 .f32) (p : Fin 8) (q : Fin 256) (e : Fin 768) :
    shapeCast S2048x768 v3 shapeCasts_S8x256x768_S2048x768 (ix2 (row p q) e) = v3 (ix3 p q e) :=
  shapeCast_apply v3 _ _ _ (by
    rw [Shape.rowMajor_val_two, Shape.rowMajor_val_three]
    rfl)

/-- In the product's left factor the kept axis is the row. -/
theorem lhs_row (i : S2048x768.Idx) (q : dot_S2048x768_S768x768_S2048x768_1_0_0_1_n_n.contr.Idx) :
    (dot_S2048x768_S768x768_S2048x768_1_0_0_1_n_n.lhsIdx i q 0).val = (i 0).val := by
  unfold DotDims.lhsIdx
  rw [dif_neg (show ¬(0 : Fin S2048x768.rank) ∈ dot_S2048x768_S768x768_S2048x768_1_0_0_1_n_n.lhsBatch by decide),
    dif_pos (show (0 : Fin S2048x768.rank) ∈ dot_S2048x768_S768x768_S2048x768_1_0_0_1_n_n.lhsNonContracting by decide)]
  rfl

/-- In the product's right factor the kept axis is the column. -/
theorem rhs_col (i : S2048x768.Idx) (q : dot_S2048x768_S768x768_S2048x768_1_0_0_1_n_n.contr.Idx) :
    (dot_S2048x768_S768x768_S2048x768_1_0_0_1_n_n.rhsIdx i q 1).val = (i 1).val := by
  unfold DotDims.rhsIdx
  rw [dif_neg (show ¬(1 : Fin S768x768.rank) ∈ dot_S2048x768_S768x768_S2048x768_1_0_0_1_n_n.rhsBatch by decide),
    dif_pos (show (1 : Fin S768x768.rank) ∈ dot_S2048x768_S768x768_S2048x768_1_0_0_1_n_n.rhsNonContracting by decide)]
  rfl

/-- A matrix product into the zero accumulator, entry `(r, j)`: row `r` of the left factor against column `j` of
    the right one. -/
theorem product_apply (l : FVec Ideal S2048x768 .bf16) (r : FVec Ideal S768x768 .bf16) (r0 : Fin 2048) (j : Fin 768) :
    matmul dot_S2048x768_S768x768_S2048x768_1_0_0_1_n_n none l r (constant (F := Ideal) S2048x768 .f32 0x00000000#32) (ix2 r0 j)
      = ∑ e : Fin 768, l (ix2 r0 e) * r (ix2 e j) := by
  refine (Ideal.matmul_constant_zero_apply dot_S2048x768_S768x768_S2048x768_1_0_0_1_n_n none l r (ix2 r0 j)).trans ?_
  rw [← Equiv.sum_comp (contrEquiv1 dot_S2048x768_S768x768_S2048x768_1_0_0_1_n_n 768 rfl rfl).symm]
  refine Finset.sum_congr rfl fun k _ => ?_
  have hk := contrEquiv1_symm_val dot_S2048x768_S768x768_S2048x768_1_0_0_1_n_n 768 rfl rfl k
  have el : dot_S2048x768_S768x768_S2048x768_1_0_0_1_n_n.lhsIdx (ix2 r0 j)
      ((contrEquiv1 dot_S2048x768_S768x768_S2048x768_1_0_0_1_n_n 768 rfl rfl).symm k) = ix2 r0 k := funext fun a => Fin.ext (by
    match a with
    | ⟨0, _⟩ => exact lhs_row _ _
    | ⟨1, _⟩ => exact (dot_S2048x768_S768x768_S2048x768_1_0_0_1_n_n.lhsIdx_val_of_single rfl _ _).trans hk)
  have er : dot_S2048x768_S768x768_S2048x768_1_0_0_1_n_n.rhsIdx (ix2 r0 j)
      ((contrEquiv1 dot_S2048x768_S768x768_S2048x768_1_0_0_1_n_n 768 rfl rfl).symm k) = ix2 k j := funext fun a => Fin.ext (by
    match a with
    | ⟨0, _⟩ => exact (dot_S2048x768_S768x768_S2048x768_1_0_0_1_n_n.rhsIdx_val_of_single rfl _ _).trans hk
    | ⟨1, _⟩ => exact rhs_col _ _)
  rw [el, er]

/-- Column `h` of the left half of the 768 hidden columns. -/
def lo (h : Fin 384) : Fin 768 := ⟨h.val, by omega⟩
/-- Column `h` of the right half of the 768 hidden columns. -/
def hi (h : Fin 384) : Fin 768 := ⟨384 + h.val, by omega⟩

/-- The first stage at row `p · 256 + q`, column `j`: the token's features against column `j` of the joined weights,
    plus the joined bias at `j`, rectified. -/
theorem hiddenBlock_apply (v3 : Vec Ideal S8x256x768 .f32) (v6 : Vec Ideal S768x768 .f32) (v9 : Vec Ideal S1x768 .f32)
    (p : Fin 8) (q : Fin 256) (j : Fin 768) :
    k0_pay7 (F := Ideal) v3 v6 v9 (ix2 (row p q) j)
      = max ((∑ e : Fin 768, v3 (ix3 p q e) * v6 (ix2 e j)) + v9 (ix2 (0 : Fin 1) j)) zero := by
  unfold k0_pay7
  show max (matmul dot_S2048x768_S768x768_S2048x768_1_0_0_1_n_n none _ _ (constant (F := Ideal) S2048x768 .f32 0x00000000#32) (ix2 (row p q) j)
    + broadcastTo S2048x768 (shapeCast S1x768 v9 shapeCasts_S1x768_S1x768) broadcasts_S1x768_S2048x768 (ix2 (row p q) j)) zero = _
  rw [product_apply, broadcastTo_1b_ab_apply]
  refine congrArg (max · zero) (congrArg₂ (· + ·) (Finset.sum_congr rfl fun e _ => ?_) ?_)
  · show shapeCast S2048x768 v3 shapeCasts_S8x256x768_S2048x768 (ix2 (row p q) e)
      * shapeCast S768x768 v6 shapeCasts_S768x768_S768x768 (ix2 e j) = _
    rw [flatten_apply, shapeCast_self]
  · rw [shapeCast_self]

/-- The left half of the hidden columns, entry `(r, h)`. -/
theorem leftHalf_apply (v : FVec Ideal S2048x768 .f32) (r : Fin 2048) (h : Fin 384) :
    extractStridedSlice S2048x384 ![0, 0] v slices_S2048x768_o0_0_S2048x384 (ix2 r h) = v (ix2 r (lo h)) :=
  extractStridedSlice_apply _ v _ _ _ fun a => by
    match a with
    | ⟨0, _⟩ => show r.val = 0 + r.val; omega
    | ⟨1, _⟩ => show h.val = 0 + h.val; omega

/-- The right half of the hidden columns, entry `(r, h)`. -/
theorem rightHalf_apply (v : FVec Ideal S2048x768 .f32) (r : Fin 2048) (h : Fin 384) :
    extractStridedSlice S2048x384 ![0, 384] v slices_S2048x768_o0_384_S2048x384 (ix2 r h) = v (ix2 r (hi h)) :=
  extractStridedSlice_apply _ v _ _ _ fun a => by
    match a with
    | ⟨0, _⟩ => show r.val = 0 + r.val; omega
    | ⟨1, _⟩ => rfl

/-- The score of row `p · 256 + q`: the left half of its hidden row against the score perceptron's output
    weights, plus its output bias, rectified. -/
theorem scoreBlock_apply (v3 : Vec Ideal S8x256x768 .f32) (v6 : Vec Ideal S768x768 .f32) (v9 : Vec Ideal S1x768 .f32)
    (v18 : Vec Ideal S1x384 .f32) (v22 : Vec Ideal S1x1 .f32) (p : Fin 8) (q : Fin 256) :
    k0_pay9 (F := Ideal) v3 v6 v9 v18 v22 (ix2 (row p q) (0 : Fin 1))
      = max ((∑ h : Fin 384, k0_pay7 (F := Ideal) v3 v6 v9 (ix2 (row p q) (lo h)) * v18 (ix2 (0 : Fin 1) h))
          + v22 (ix2 (0 : Fin 1) (0 : Fin 1))) zero := by
  unfold k0_pay9
  show max (shapeCast S2048x1 _ shapeCasts_S2048_S2048x1 (ix2 (row p q) (0 : Fin 1))
    + broadcastTo S2048x1 (shapeCast S1x1 v22 shapeCasts_S1x1_S1x1) broadcasts_S1x1_S2048x1 (ix2 (row p q) (0 : Fin 1))) zero = _
  rw [Cert.LibLayout.shapeCast_a_a1_apply]
  refine congrArg (max · zero) (congrArg₂ (· + ·) ?_ ?_)
  · refine (Cert.LibLayout.laneSum_apply _ reduces_S2048x384_S2048 _ _ (row p q)).trans (Finset.sum_congr rfl fun h _ => ?_)
    show extractStridedSlice S2048x384 ![0, 0] (k0_pay7 (F := Ideal) v3 v6 v9) slices_S2048x768_o0_0_S2048x384 (ix2 (row p q) h)
      * broadcastTo S2048x384 (shapeCast S1x384 v18 shapeCasts_S1x384_S1x384) broadcasts_S1x384_S2048x384 (ix2 (row p q) h) = _
    rw [leftHalf_apply, broadcastTo_1b_ab_apply, shapeCast_self]
  · rw [broadcastTo_1b_ab_apply, shapeCast_self]

/-- The products the weight perceptron's output sums, entry `(row, h)`: the right half of the hidden row times
    its output weights. -/
theorem gateProducts_apply (v3 : Vec Ideal S8x256x768 .f32) (v6 : Vec Ideal S768x768 .f32) (v9 : Vec Ideal S1x768 .f32)
    (v20 : Vec Ideal S1x384 .f32) (p : Fin 8) (q : Fin 256) (h : Fin 384) :
    k0_pay10 (F := Ideal) v3 v6 v9 v20 (ix2 (row p q) h)
      = k0_pay7 (F := Ideal) v3 v6 v9 (ix2 (row p q) (hi h)) * v20 (ix2 (0 : Fin 1) h) := by
  unfold k0_pay10
  show extractStridedSlice S2048x384 ![0, 384] (k0_pay7 (F := Ideal) v3 v6 v9) slices_S2048x768_o0_384_S2048x384 (ix2 (row p q) h)
    * broadcastTo S2048x384 (shapeCast S1x384 v20 shapeCasts_S1x384_S1x384) broadcasts_S1x384_S2048x384 (ix2 (row p q) h) = _
  rw [rightHalf_apply, broadcastTo_1b_ab_apply, shapeCast_self]

/-- The weight of row `r`: the logistic function of the lane sum of its products plus the output bias. -/
theorem weightBlock_apply (v25 : FVec Ideal S1x1 .f32) (v35 : FVec Ideal S2048x384 .f32) (r : Fin 2048) :
    k0_pay1 (F := Ideal) v25 v35 (ix2 r (0 : Fin 1))
      = Ideal.logistic ((∑ h : Fin 384, v35 (ix2 r h)) + v25 (ix2 (0 : Fin 1) (0 : Fin 1))) := by
  unfold k0_pay1
  show Ideal.logistic (shapeCast S2048x1 _ shapeCasts_S2048_S2048x1 (ix2 r (0 : Fin 1))
    + broadcastTo S2048x1 v25 broadcasts_S1x1_S2048x1 (ix2 r (0 : Fin 1))) = _
  rw [Cert.LibLayout.shapeCast_a_a1_apply]
  refine congrArg Ideal.logistic (congrArg₂ (· + ·) ?_ ?_)
  · exact Cert.LibLayout.laneSum_apply v35 reduces_S2048x384_S2048 _ _ r
  · rw [broadcastTo_1b_ab_apply]

/-- The 2048 rows regrouped as 8 batch rows of 256 tokens. -/
theorem regroup_apply (v : FVec Ideal S2048x1 .f32) (p : Fin 8) (q : Fin 256) :
    shapeCast S8x256x1 v shapeCasts_S2048x1_S8x256x1 (ix3 p q (0 : Fin 1)) = v (ix2 (row p q) (0 : Fin 1)) :=
  shapeCast_apply v _ _ _ (by
    rw [Shape.rowMajor_val_two, Shape.rowMajor_val_three]
    rfl)

/-- With token `q` put back on the summed axis, the index of batch row `p` is `(p, q, 0)`. -/
theorem lift_token (p : Fin 8) (q : Fin 256) :
    reduces_S8x256x1_S8x1.lift (ix2 p (0 : Fin 1)) q = ix3 p q (0 : Fin 1) := by
  funext a
  refine Fin.ext ?_
  match a with
  | ⟨0, _⟩ => rfl
  | ⟨1, _⟩ => rfl
  | ⟨2, _⟩ => rfl

/-- A sum over the token axis of a regrouped column, at batch row `p`: the sum over the row's 256 tokens. -/
theorem tokenSum_apply (v : FVec Ideal S8x256x1 .f32) (p : Fin 8) :
    multiReduction (F := Ideal) .add [1] S8x1 v 0x00000000#32 reduces_S8x256x1_S8x1 (.inl rfl) rfl (ix2 p (0 : Fin 1))
      = ∑ q : Fin 256, v (ix3 p q (0 : Fin 1)) :=
  (Ideal.multiReduction_add_single v 0x00000000#32 reduces_S8x256x1_S8x1 (.inl rfl) rfl (ix2 p (0 : Fin 1))).trans
    (Finset.sum_congr rfl fun q _ => congrArg v (lift_token p q))

/-- The first total's update at batch row `p`: what it held plus the sum over the row's tokens of score times weight. -/
theorem update0_apply (v25 : FVec Ideal S1x1 .f32) (v33 : FVec Ideal S2048x1 .f32) (v35 : FVec Ideal S2048x384 .f32)
    (v44 : Vec Ideal S8x1 .f32) (p : Fin 8) :
    k0_pay2 (F := Ideal) v25 v33 v35 v44 (ix2 p (0 : Fin 1))
      = v44 (ix2 p (0 : Fin 1))
        + ∑ q : Fin 256, v33 (ix2 (row p q) (0 : Fin 1)) * k0_pay1 (F := Ideal) v25 v35 (ix2 (row p q) (0 : Fin 1)) := by
  unfold k0_pay2
  rw [shapeCast_self]
  refine congrArg (v44 (ix2 p (0 : Fin 1)) + ·) ((tokenSum_apply _ p).trans (Finset.sum_congr rfl fun q _ => ?_))
  rw [regroup_apply]
  rfl

/-- The second total's update at batch row `p`: what it held plus the sum over the row's tokens of the weights. -/
theorem update1_apply (v25 : FVec Ideal S1x1 .f32) (v35 : FVec Ideal S2048x384 .f32) (v50 : Vec Ideal S8x1 .f32) (p : Fin 8) :
    k0_pay3 (F := Ideal) v25 v35 v50 (ix2 p (0 : Fin 1))
      = v50 (ix2 p (0 : Fin 1)) + ∑ q : Fin 256, k0_pay1 (F := Ideal) v25 v35 (ix2 (row p q) (0 : Fin 1)) := by
  unfold k0_pay3
  rw [shapeCast_self]
  refine congrArg (v50 (ix2 p (0 : Fin 1)) + ·) ((tokenSum_apply _ p).trans (Finset.sum_congr rfl fun q _ => ?_))
  rw [regroup_apply]

/-- The stored quotient, entry by entry. -/
theorem quotient_apply (a b : Vec Ideal S8x1 .f32) (y : S8x1.Idx) :
    k0_pay4 (F := Ideal) a b y = Ideal.div (a y) (b y) := rfl

/-- The block the first total is reset to is zero everywhere. -/
theorem reset0_apply (y : S8x1.Idx) : k0_pay5 (F := Ideal) y = 0 := by
  unfold k0_pay5
  rw [shapeCast_self]
  exact Ideal.ofBits_zero_f32

/-- The block the second total is reset to is zero everywhere. -/
theorem reset1_apply (y : S8x1.Idx) : k0_pay6 (F := Ideal) y = 0 := by
  unfold k0_pay6
  rw [shapeCast_self]
  exact Ideal.ofBits_zero_f32

end Cert.KernelIdeal.Terms

end
-- ==== Proof.EntryBlocks.lean ====
/-
  What each input window's block holds at a grid point, entry by entry, in terms of the nine argument arrays.

  The grid is 4 × 4: point `t` works on batch rows `8·(t / 4) … 8·(t / 4) + 7` and on tokens
  `256·(t % 4) … 256·(t % 4) + 255`. The first window's block is that [8, 256, 768] box of the feature array.
  Each of the other six windows holds one whole small array that the host prepared before the region: the two hidden
  layers' weight matrices side by side (768 columns: the score perceptron's 384, then the weight perceptron's 384),
  their two bias vectors joined likewise and laid out as one row, each perceptron's output weights as a row (the
  column transposed), and each output bias as a 1 × 1 matrix.
-/
import proofs.«113493_j4827543241294_2_alg».proof.Proof.TokenTerms
import proofs.«113493_j4827543241294_2_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
open Cert.KernelIdeal.Terms (lo hi)
open Cert.WeightedMean (tok)

/-! ## The grid point's coordinates -/

/-- The batch row of the array that is row `p` of the point's block: the point's row group is `t / 4`. -/
def rowGroup (t : Fin cfg0.N) (p : Fin 8) : Fin 32 :=
  ⟨t.val / 4 * 8 + p.val, by have h : t.val < 16 := lt_of_lt_of_eq t.isLt N_0; omega⟩

/-- Which block of 256 tokens the point works on: `t % 4`. -/
def tokBlock (t : Fin cfg0.N) : Fin 4 := ⟨t.val % 4, Nat.mod_lt _ (by decide)⟩

variable (m : (ℓ : Loc nD τ sig) → Buf (Elt Ideal) ℓ) (c : Dev nD) (t : Fin cfg0.N)

/-! ## Window 0: a box of the feature array -/

/-- The first window's block index at point `t` is `(t / 4, t % 4, 0)`. -/
theorem featureIndex : ∀ t : Fin grid0.N,
    win0_0.index t 0 = t.val / 4 ∧ win0_0.index t 1 = t.val % 4 ∧ win0_0.index t 2 = 0 := by
  decide +kernel

/-- Entry `(p, q, e)` of the block is feature `e` of token `256·(t % 4) + q` of batch row `8·(t / 4) + p`. -/
theorem x_apply (p : Fin 8) (q : Fin 256) (e : Fin 768) :
    (iblk m c 0 t : Vec Ideal S8x256x768 .f32) (ix3 p q e)
      = m ((c : Thread nD τ).loc main_arg0) (ix3 (rowGroup t p) (tok (tokBlock t) q) e) := by
  have hi := featureIndex t
  unfold iblk
  rw [View.read_apply]
  show V m c main_arg0 _ = _
  rw [V_main_arg0]
  congr 1
  funext a
  apply Fin.ext
  match a with
  | ⟨0, _⟩ => show win0_0.index t 0 * 8 + 1 * p.val = t.val / 4 * 8 + p.val; rw [hi.1]; omega
  | ⟨1, _⟩ => show win0_0.index t 1 * 256 + 1 * q.val = t.val % 4 * 256 + q.val; rw [hi.2.1]; omega
  | ⟨2, _⟩ => show win0_0.index t 2 * 768 + 1 * e.val = e.val; rw [hi.2.2]; omega

/-! ## Window 1: the two hidden layers' weights side by side -/

/-- The array the host joined: the score perceptron's weight matrix, then the weight perceptron's, along the columns. -/
theorem joinedWeights_eq :
    (V m c main_v0 : S768x768.Idx → EReal)
      = concatenate S768x768 1 [⟨S768x384, m ((c : Thread nD τ).loc main_arg1)⟩, ⟨S768x384, m ((c : Thread nD τ).loc main_arg5)⟩]
          concatenates_S768x384_S768x384_S768x768_d1 := by
  show StableHlo.after hostOps0 (fun b => m (c, b)) (Proc.devRef .tc main_v0) = _
  after_results

/-- The window's index map is constantly `(0, 0)`. -/
theorem weights_index : ∀ t : Fin grid0.N, win0_1.index t 0 = 0 ∧ win0_1.index t 1 = 0 := by
  decide +kernel

/-- Its block is the whole array, entry for entry. -/
theorem weights_block (j : S768x768.Idx) : (iblk m c 1 t : Vec Ideal S768x768 .f32) j = V m c main_v0 j := by
  have hi := weights_index t
  unfold iblk
  rw [View.read_apply]
  show V m c main_v0 _ = _
  congr 1
  funext a
  apply Fin.ext
  match a with
  | ⟨0, _⟩ => show win0_1.index t 0 * 768 + 1 * (j 0).val = (j 0).val; rw [hi.1]; omega
  | ⟨1, _⟩ => show win0_1.index t 1 * 768 + 1 * (j 1).val = (j 1).val; rw [hi.2]; omega

/-- Column `h` of the left half is column `h` of the score perceptron's weights. -/
theorem w1_lo (e : Fin 768) (h : Fin 384) :
    (iblk m c 1 t : Vec Ideal S768x768 .f32) (ix2 e (lo h)) = m ((c : Thread nD τ).loc main_arg1) (ix2 e h) := by
  rw [weights_block, joinedWeights_eq]
  exact concatenate_pair_apply_left (t := S768x768) (s₁ := S768x384) (s₂ := S768x384) (1 : Fin 2) _ _ _ (ix2 e (lo h)) rfl (ix2 e h)
    (fun b => match b with | ⟨0, _⟩ => rfl | ⟨1, _⟩ => rfl)

/-- Column `h` of the right half is column `h` of the weight perceptron's weights. -/
theorem w1_hi (e : Fin 768) (h : Fin 384) :
    (iblk m c 1 t : Vec Ideal S768x768 .f32) (ix2 e (hi h)) = m ((c : Thread nD τ).loc main_arg5) (ix2 e h) := by
  rw [weights_block, joinedWeights_eq]
  exact concatenate_pair_apply_right (t := S768x768) (s₁ := S768x384) (s₂ := S768x384) (1 : Fin 2) _ _ _ (ix2 e (hi h)) rfl rfl (ix2 e h)
    (fun b => match b with | ⟨0, _⟩ => fun _ => rfl | ⟨1, _⟩ => fun hb => absurd rfl hb)
    (by show h.val + 384 = 384 + h.val; omega)

/-! ## Window 2: the two hidden layers' biases, joined and laid out as one row -/

/-- The array the host prepared: the two bias vectors joined, then given a leading unit axis. -/
theorem joinedBias_eq :
    (V m c main_v2 : S1x768.Idx → EReal)
      = shapeCast S1x768 (concatenate S768 0 [⟨S384, m ((c : Thread nD τ).loc main_arg2)⟩, ⟨S384, m ((c : Thread nD τ).loc main_arg6)⟩]
          concatenates_S384_S384_S768_d0) shapeCasts_S768_S1x768 := by
  show StableHlo.after hostOps0 (fun b => m (c, b)) (Proc.devRef .tc main_v2) = _
  after_results
  rfl

/-- The window's index map is constantly `(0, 0)`. -/
theorem bias_index : ∀ t : Fin grid0.N, win0_2.index t 0 = 0 ∧ win0_2.index t 1 = 0 := by
  decide +kernel

/-- Its block is the whole array, entry for entry. -/
theorem bias_block (j : S1x768.Idx) : (iblk m c 2 t : Vec Ideal S1x768 .f32) j = V m c main_v2 j := by
  have hi := bias_index t
  unfold iblk
  rw [View.read_apply]
  show V m c main_v2 _ = _
  congr 1
  funext a
  apply Fin.ext
  match a with
  | ⟨0, _⟩ => show win0_2.index t 0 * 1 + 1 * (j 0).val = (j 0).val; rw [hi.1]; omega
  | ⟨1, _⟩ => show win0_2.index t 1 * 768 + 1 * (j 1).val = (j 1).val; rw [hi.2]; omega

/-- Lane `h` of the left half is the score perceptron's hidden bias `h`. -/
theorem b1_lo (h : Fin 384) :
    (iblk m c 2 t : Vec Ideal S1x768 .f32) (ix2 (0 : Fin 1) (lo h)) = m ((c : Thread nD τ).loc main_arg2) (ix1 h) := by
  rw [bias_block, joinedBias_eq]
  refine (shapeCast_a_1a_apply _ _ (0 : Fin 1) (lo h)).trans ?_
  exact concatenate_pair_apply_left (t := S768) (s₁ := S384) (s₂ := S384) (0 : Fin 1) _ _ _ (ix1 (lo h)) rfl (ix1 h)
    (fun b => match b with | ⟨0, _⟩ => rfl)

/-- Lane `h` of the right half is the weight perceptron's hidden bias `h`. -/
theorem b1_hi (h : Fin 384) :
    (iblk m c 2 t : Vec Ideal S1x768 .f32) (ix2 (0 : Fin 1) (hi h)) = m ((c : Thread nD τ).loc main_arg6) (ix1 h) := by
  rw [bias_block, joinedBias_eq]
  refine (shapeCast_a_1a_apply _ _ (0 : Fin 1) (hi h)).trans ?_
  exact concatenate_pair_apply_right (t := S768) (s₁ := S384) (s₂ := S384) (0 : Fin 1) _ _ _ (ix1 (hi h)) rfl rfl (ix1 h)
    (fun b => match b with | ⟨0, _⟩ => fun hb => absurd rfl hb)
    (by show h.val + 384 = 384 + h.val; omega)

/-! ## Windows 3 and 5: each perceptron's output weights, the column laid out as a row -/

/-- The score perceptron's output weights, transposed. -/
theorem scoreOut_eq :
    (V m c main_v3 : S1x384.Idx → EReal)
      = transpose S1x384 [1, 0] (m ((c : Thread nD τ).loc main_arg3)) transposes_S384x1_S1x384_1_0 := by
  show StableHlo.after hostOps0 (fun b => m (c, b)) (Proc.devRef .tc main_v3) = _
  after_results

/-- The window's index map is constantly `(0, 0)`. -/
theorem scoreOut_index : ∀ t : Fin grid0.N, win0_3.index t 0 = 0 ∧ win0_3.index t 1 = 0 := by
  decide +kernel

/-- Its block is the whole array, entry for entry. -/
theorem scoreOut_block (j : S1x384.Idx) : (iblk m c 3 t : Vec Ideal S1x384 .f32) j = V m c main_v3 j := by
  have hi := scoreOut_index t
  unfold iblk
  rw [View.read_apply]
  show V m c main_v3 _ = _
  congr 1
  funext a
  apply Fin.ext
  match a with
  | ⟨0, _⟩ => show win0_3.index t 0 * 1 + 1 * (j 0).val = (j 0).val; rw [hi.1]; omega
  | ⟨1, _⟩ => show win0_3.index t 1 * 384 + 1 * (j 1).val = (j 1).val; rw [hi.2]; omega

/-- Lane `h` of the row is the score perceptron's output weight of hidden unit `h`. -/
theorem scoreOut_apply (h : Fin 384) :
    (iblk m c 3 t : Vec Ideal S1x384 .f32) (ix2 (0 : Fin 1) h) = m ((c : Thread nD τ).loc main_arg3) (ix2 h (0 : Fin 1)) := by
  rw [scoreOut_block, scoreOut_eq]
  exact transpose_ix2_apply _ _ (0 : Fin 1) h

/-- The weight perceptron's output weights, transposed. -/
theorem weightOut_eq :
    (V m c main_v4 : S1x384.Idx → EReal)
      = transpose S1x384 [1, 0] (m ((c : Thread nD τ).loc main_arg7)) transposes_S384x1_S1x384_1_0 := by
  show StableHlo.after hostOps0 (fun b => m (c, b)) (Proc.devRef .tc main_v4) = _
  after_results

/-- The window's index map is constantly `(0, 0)`. -/
theorem weightOut_index : ∀ t : Fin grid0.N, win0_5.index t 0 = 0 ∧ win0_5.index t 1 = 0 := by
  decide +kernel

/-- Its block is the whole array, entry for entry. -/
theorem weightOut_block (j : S1x384.Idx) : (iblk m c 5 t : Vec Ideal S1x384 .f32) j = V m c main_v4 j := by
  have hi := weightOut_index t
  unfold iblk
  rw [View.read_apply]
  show V m c main_v4 _ = _
  congr 1
  funext a
  apply Fin.ext
  match a with
  | ⟨0, _⟩ => show win0_5.index t 0 * 1 + 1 * (j 0).val = (j 0).val; rw [hi.1]; omega
  | ⟨1, _⟩ => show win0_5.index t 1 * 384 + 1 * (j 1).val = (j 1).val; rw [hi.2]; omega

/-- Lane `h` of the row is the weight perceptron's output weight of hidden unit `h`. -/
theorem weightOut_apply (h : Fin 384) :
    (iblk m c 5 t : Vec Ideal S1x384 .f32) (ix2 (0 : Fin 1) h) = m ((c : Thread nD τ).loc main_arg7) (ix2 h (0 : Fin 1)) := by
  rw [weightOut_block, weightOut_eq]
  exact transpose_ix2_apply _ _ (0 : Fin 1) h

/-! ## Windows 4 and 6: each perceptron's output bias as a 1 × 1 matrix -/

/-- The score perceptron's output bias, given a leading unit axis. -/
theorem scoreBias_eq :
    (V m c main_v5 : S1x1.Idx → EReal) = shapeCast S1x1 (m ((c : Thread nD τ).loc main_arg4)) shapeCasts_S1_S1x1 := by
  show StableHlo.after hostOps0 (fun b => m (c, b)) (Proc.devRef .tc main_v5) = _
  after_results
  rfl

/-- The window's index map is constantly `(0, 0)`. -/
theorem scoreBias_index : ∀ t : Fin grid0.N, win0_4.index t 0 = 0 ∧ win0_4.index t 1 = 0 := by
  decide +kernel

/-- Its block is the whole array, entry for entry. -/
theorem scoreBias_block (j : S1x1.Idx) : (iblk m c 4 t : Vec Ideal S1x1 .f32) j = V m c main_v5 j := by
  have hi := scoreBias_index t
  unfold iblk
  rw [View.read_apply]
  show V m c main_v5 _ = _
  congr 1
  funext a
  apply Fin.ext
  match a with
  | ⟨0, _⟩ => show win0_4.index t 0 * 1 + 1 * (j 0).val = (j 0).val; rw [hi.1]; omega
  | ⟨1, _⟩ => show win0_4.index t 1 * 1 + 1 * (j 1).val = (j 1).val; rw [hi.2]; omega

/-- Its one entry is the score perceptron's output bias. -/
theorem scoreBias_apply :
    (iblk m c 4 t : Vec Ideal S1x1 .f32) (ix2 (0 : Fin 1) (0 : Fin 1)) = m ((c : Thread nD τ).loc main_arg4) (ix1 (0 : Fin 1)) := by
  rw [scoreBias_block, scoreBias_eq]
  exact shapeCast_a_1a_apply _ _ (0 : Fin 1) (0 : Fin 1)

/-- The weight perceptron's output bias, given a leading unit axis. -/
theorem weightBias_eq :
    (V m c main_v6 : S1x1.Idx → EReal) = shapeCast S1x1 (m ((c : Thread nD τ).loc main_arg8)) shapeCasts_S1_S1x1 := by
  show StableHlo.after hostOps0 (fun b => m (c, b)) (Proc.devRef .tc main_v6) = _
  after_results
  rfl

/-- The window's index map is constantly `(0, 0)`. -/
theorem weightBias_index : ∀ t : Fin grid0.N, win0_6.index t 0 = 0 ∧ win0_6.index t 1 = 0 := by
  decide +kernel

/-- Its block is the whole array, entry for entry. -/
theorem weightBias_block (j : S1x1.Idx) : (iblk m c 6 t : Vec Ideal S1x1 .f32) j = V m c main_v6 j := by
  have hi := weightBias_index t
  unfold iblk
  rw [View.read_apply]
  show V m c main_v6 _ = _
  congr 1
  funext a
  apply Fin.ext
  match a with
  | ⟨0, _⟩ => show win0_6.index t 0 * 1 + 1 * (j 0).val = (j 0).val; rw [hi.1]; omega
  | ⟨1, _⟩ => show win0_6.index t 1 * 1 + 1 * (j 1).val = (j 1).val; rw [hi.2]; omega

/-- Its one entry is the weight perceptron's output bias. -/
theorem weightBias_apply :
    (iblk m c 6 t : Vec Ideal S1x1 .f32) (ix2 (0 : Fin 1) (0 : Fin 1)) = m ((c : Thread nD τ).loc main_arg8) (ix1 (0 : Fin 1)) := by
  rw [weightBias_block, weightBias_eq]
  exact shapeCast_a_1a_apply _ _ (0 : Fin 1) (0 : Fin 1)

end Cert.KernelIdeal.Blocks

end
-- ==== Proof.PointTerms.lean ====
/-
  The scores and weights one grid point computes, in terms of the argument arrays.

  At the point that works on batch rows `8·(t / 4) + p` and tokens `256·(t % 4) + q`, the body's score for row
  `p · 256 + q` of its block is the score of that token, and its weight the weight of that token: the block of
  features is that box of the feature array, the left and right halves of the joined hidden weights and biases are
  the two perceptrons' own, and the output weights and biases are the arguments' read through a transposition or a
  change of shape.
-/
import proofs.«113493_j4827543241294_2_alg».proof.Proof.Gen.KernelIdeal.Frame
import proofs.«113493_j4827543241294_2_alg».proof.Proof.TokenTerms
import proofs.«113493_j4827543241294_2_alg».proof.Proof.EntryBlocks
import Idealize.ShloMosaic.Lib.Pipeline.Value

noncomputable section

namespace Cert.KernelIdeal.Point

open Idealize.ShloMosaic Idealize.ShloMosaic.ValueIdx Idealize.ShloMosaic.TcCoe Idealize.SL.Sem Cert.KernelIdeal Cert.KernelIdeal.Gen
open Cert.KernelIdeal.Terms Cert.KernelIdeal.Blocks Cert.WeightedMean

variable (m : (ℓ : Loc nD τ sig) → Buf (Elt Ideal) ℓ) (c : Dev nD) (t : Fin cfg0.N)

/-- The left half of the block's hidden row is the score perceptron's hidden layer at the token. -/
theorem hidden_lo (p : Fin 8) (q : Fin 256) (h : Fin 384) :
    k0_pay7 (F := Ideal) (iblk m c 0 t) (iblk m c 1 t) (iblk m c 2 t) (ix2 (row p q) (lo h))
      = hidden (m ((c.tc : Thread nD τ).loc main_arg0)) (m ((c.tc : Thread nD τ).loc main_arg1)) (m ((c.tc : Thread nD τ).loc main_arg2)) (rowGroup t p) (tok (tokBlock t) q) h :=
  (hiddenBlock_apply (iblk m c 0 t) (iblk m c 1 t) (iblk m c 2 t) p q (lo h)).trans
    (congrArg (max · zero) (congrArg₂ (· + ·)
      (Finset.sum_congr rfl fun e _ => congrArg₂ (· * ·) (x_apply m c t p q e) (w1_lo m c t e h)) (b1_lo m c t h)))

/-- The right half of the block's hidden row is the weight perceptron's hidden layer at the token. -/
theorem hidden_hi (p : Fin 8) (q : Fin 256) (h : Fin 384) :
    k0_pay7 (F := Ideal) (iblk m c 0 t) (iblk m c 1 t) (iblk m c 2 t) (ix2 (row p q) (hi h))
      = hidden (m ((c.tc : Thread nD τ).loc main_arg0)) (m ((c.tc : Thread nD τ).loc main_arg5)) (m ((c.tc : Thread nD τ).loc main_arg6)) (rowGroup t p) (tok (tokBlock t) q) h :=
  (hiddenBlock_apply (iblk m c 0 t) (iblk m c 1 t) (iblk m c 2 t) p q (hi h)).trans
    (congrArg (max · zero) (congrArg₂ (· + ·)
      (Finset.sum_congr rfl fun e _ => congrArg₂ (· * ·) (x_apply m c t p q e) (w1_hi m c t e h)) (b1_hi m c t h)))

/-- The score the body computes for row `p · 256 + q` of the point's block is the score of the token it holds. -/
theorem score_at (p : Fin 8) (q : Fin 256) :
    k0_pay9 (F := Ideal) (iblk m c 0 t) (iblk m c 1 t) (iblk m c 2 t) (iblk m c 3 t) (iblk m c 4 t) (ix2 (row p q) (0 : Fin 1))
      = score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowGroup t p) (tok (tokBlock t) q) :=
  (scoreBlock_apply (iblk m c 0 t) (iblk m c 1 t) (iblk m c 2 t) (iblk m c 3 t) (iblk m c 4 t) p q).trans
    (congrArg (max · zero) (congrArg₂ (· + ·)
      (Finset.sum_congr rfl fun h _ => congrArg₂ (· * ·) (hidden_lo m c t p q h) (scoreOut_apply m c t h))
      (scoreBias_apply m c t)))

/-- The weight the body computes for row `p · 256 + q` of the point's block is the weight of the token it holds. -/
theorem weight_at (p : Fin 8) (q : Fin 256) :
    k0_pay1 (F := Ideal) (k0_pay8 (iblk m c 6 t)) (k0_pay10 (iblk m c 0 t) (iblk m c 1 t) (iblk m c 2 t) (iblk m c 5 t)) (ix2 (row p q) (0 : Fin 1))
      = weight (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (rowGroup t p) (tok (tokBlock t) q) :=
  (weightBlock_apply (k0_pay8 (iblk m c 6 t)) (k0_pay10 (iblk m c 0 t) (iblk m c 1 t) (iblk m c 2 t) (iblk m c 5 t)) (row p q)).trans
    (congrArg Ideal.logistic (congrArg₂ (· + ·)
      (Finset.sum_congr rfl fun h _ => (gateProducts_apply (iblk m c 0 t) (iblk m c 1 t) (iblk m c 2 t) (iblk m c 5 t) p q h).trans
        (congrArg₂ (· * ·) (hidden_hi m c t p q h) (weightOut_apply m c t h)))
      ((congrFun (shapeCast_self (s := S1x1) (iblk m c 6 t) shapeCasts_S1x1_S1x1) _).trans (weightBias_apply m c t))))

end Cert.KernelIdeal.Point

end
-- ==== Proof.BodyValues.lean ====
/-
  What one run of the kernel body leaves behind, case by case, as pure functions of the blocks it loaded.

  The body runs in three ways, by the position `ni` of the grid point on the token axis. At the first block of a
  batch row group (`ni = 0`) the two running totals are reset to zero and then updated; at the middle blocks they
  are only updated; at the last block (`ni = 3`) they are updated and their quotient is stored to the output block.
  The update of the first total adds, for each of the 8 batch rows of the block, the sum over the block's 256 tokens
  of score times weight to what the total held; the update of the second adds the sum of the weights.

  Each lemma reads the stores the symbolic run of one case found back as one value: the last store to a buffer
  through the whole-buffer rectangle is what the buffer holds, and a load of a whole staging buffer is the block
  the pipeline put there.
-/
import proofs.«113493_j4827543241294_2_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic Idealize.SL.Sem Cert.KernelIdeal Cert.KernelIdeal.Gen

variable {F : FTy → Type} [FloatOps F]
variable (c : Dev nD) (i : grid0.Coords)
  (arg2 : Memref sig .tc .vmem S8x256x768 .f32) (harg2 : arg2.IsWhole) (arg3 : Memref sig .tc .vmem S768x768 .f32) (harg3 : arg3.IsWhole)
  (arg4 : Memref sig .tc .vmem S1x768 .f32) (harg4 : arg4.IsWhole) (arg5 : Memref sig .tc .vmem S1x384 .f32) (harg5 : arg5.IsWhole)
  (arg6 : Memref sig .tc .vmem S1x1 .f32) (harg6 : arg6.IsWhole) (arg7 : Memref sig .tc .vmem S1x384 .f32) (harg7 : arg7.IsWhole)
  (arg8 : Memref sig .tc .vmem S1x1 .f32) (harg8 : arg8.IsWhole) (arg9 : Memref sig .tc .vmem S8x1 .f32) (harg9 : arg9.IsWhole)
  (arg10 : Memref sig .tc .vmem S8x1 .f32) (harg10 : arg10.IsWhole) (arg11 : Memref sig .tc .vmem S8x1 .f32) (harg11 : arg11.IsWhole)
  (x0 : Vec F S8x256x768 .f32) (x1 : Vec F S768x768 .f32) (x2 : Vec F S1x768 .f32) (x3 : Vec F S1x384 .f32) (x4 : Vec F S1x1 .f32)
  (x5 : Vec F S1x384 .f32) (x6 : Vec F S1x1 .f32) (xs0 : Vec F S8x1 .f32) (xs1 : Vec F S8x1 .f32)

/-- The offsets of a whole-buffer access of a matrix are all zero. -/
theorem hz : (![0, 0] : Fin 2 → Nat) = fun _ => 0 := funext fun a => by fin_cases a <;> rfl

/-- The offsets of a whole-buffer access of a rank-3 block are all zero. -/
theorem hz3 : (![0, 0, 0] : Fin 3 → Nat) = fun _ => 0 := funext fun a => by fin_cases a <;> rfl

/-! ## The first block of a row group: totals reset, then updated -/

/-- After the first block the first total holds the update applied to the zero block. -/
theorem total0_first (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay2 (k0_pay8 x6) (k0_pay9 x0 x1 x2 x3 x4) (k0_pay10 x0 x1 x2 x5) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S8x1) hz]
  simp only [View.readAt_eq_ld, harg2.read_unread, harg3.read_unread, harg4.read_unread, harg5.read_unread, harg6.read_unread,
    harg7.read_unread, harg8.read_unread, harg9.read_unread, harg10.read_unread, harg11.read_unread,
    View.readCov_unit_zero (S := S8x1) arg10.view hz, View.readCov_unit_zero (S := S8x1) arg11.view hz,
    View.ld_unit_zero (S := S8x1) hz, View.ld_unit_zero (S := S1x1) hz, View.ld_unit_zero (S := S1x384) hz,
    View.ld_unit_zero (S := S1x768) hz, View.ld_unit_zero (S := S768x768) hz, View.ld_unit_zero (S := S8x256x768) hz3]

/-- After the first block the second total holds its update applied to the zero block. -/
theorem total1_first (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay3 (k0_pay8 x6) (k0_pay10 x0 x1 x2 x5) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S8x1) hz]
  simp only [View.readAt_eq_ld, harg2.read_unread, harg3.read_unread, harg4.read_unread, harg5.read_unread, harg6.read_unread,
    harg7.read_unread, harg8.read_unread, harg9.read_unread, harg10.read_unread, harg11.read_unread,
    View.readCov_unit_zero (S := S8x1) arg10.view hz, View.readCov_unit_zero (S := S8x1) arg11.view hz,
    View.ld_unit_zero (S := S8x1) hz, View.ld_unit_zero (S := S1x1) hz, View.ld_unit_zero (S := S1x384) hz,
    View.ld_unit_zero (S := S1x768) hz, View.ld_unit_zero (S := S768x768) hz, View.ld_unit_zero (S := S8x256x768) hz3]

/-! ## A middle block: totals updated -/

/-- After a middle block the first total holds the update applied to what it held. -/
theorem total0_middle (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay2 (k0_pay8 x6) (k0_pay9 x0 x1 x2 x3 x4) (k0_pay10 x0 x1 x2 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread,
    View.readCov_unit_zero (S := S8x1) arg10.view hz, View.readCov_unit_zero (S := S8x1) arg11.view hz,
    View.ld_unit_zero (S := S8x1) hz, View.ld_unit_zero (S := S1x1) hz, View.ld_unit_zero (S := S1x384) hz,
    View.ld_unit_zero (S := S1x768) hz, View.ld_unit_zero (S := S768x768) hz, View.ld_unit_zero (S := S8x256x768) hz3]

/-- After a middle block the second total holds its update applied to what it held. -/
theorem total1_middle (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 (k0_pay8 x6) (k0_pay10 x0 x1 x2 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread,
    View.readCov_unit_zero (S := S8x1) arg10.view hz, View.readCov_unit_zero (S := S8x1) arg11.view hz,
    View.ld_unit_zero (S := S8x1) hz, View.ld_unit_zero (S := S1x1) hz, View.ld_unit_zero (S := S1x384) hz,
    View.ld_unit_zero (S := S1x768) hz, View.ld_unit_zero (S := S768x768) hz, View.ld_unit_zero (S := S8x256x768) hz3]

/-! ## The last block: totals updated, their quotient stored -/

/-- After the last block the first total holds the update applied to what it held. -/
theorem total0_last (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay2 (k0_pay8 x6) (k0_pay9 x0 x1 x2 x3 x4) (k0_pay10 x0 x1 x2 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread,
    View.readCov_unit_zero (S := S8x1) arg10.view hz, View.readCov_unit_zero (S := S8x1) arg11.view hz,
    View.ld_unit_zero (S := S8x1) hz, View.ld_unit_zero (S := S1x1) hz, View.ld_unit_zero (S := S1x384) hz,
    View.ld_unit_zero (S := S1x768) hz, View.ld_unit_zero (S := S768x768) hz, View.ld_unit_zero (S := S8x256x768) hz3]

/-- After the last block the second total holds its update applied to what it held. -/
theorem total1_last (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 (k0_pay8 x6) (k0_pay10 x0 x1 x2 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread,
    View.readCov_unit_zero (S := S8x1) arg10.view hz, View.readCov_unit_zero (S := S8x1) arg11.view hz,
    View.ld_unit_zero (S := S8x1) hz, View.ld_unit_zero (S := S1x1) hz, View.ld_unit_zero (S := S1x384) hz,
    View.ld_unit_zero (S := S1x768) hz, View.ld_unit_zero (S := S768x768) hz, View.ld_unit_zero (S := S8x256x768) hz3]

/-- At the last block the output block is the quotient of the two updated totals, entry by entry. -/
theorem quotient_last (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay4 (k0_pay2 (k0_pay8 x6) (k0_pay9 x0 x1 x2 x3 x4) (k0_pay10 x0 x1 x2 x5) xs0) (k0_pay3 (k0_pay8 x6) (k0_pay10 x0 x1 x2 x5) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread,
    View.readCov_unit_zero (S := S8x1) arg10.view hz, View.readCov_unit_zero (S := S8x1) arg11.view hz,
    View.ld_unit_zero (S := S8x1) hz, View.ld_unit_zero (S := S1x1) hz, View.ld_unit_zero (S := S1x384) hz,
    View.ld_unit_zero (S := S1x768) hz, View.ld_unit_zero (S := S768x768) hz, View.ld_unit_zero (S := S8x256x768) hz3]

end Cert.KernelIdeal.Body

end
-- ==== Proof.RunningTotals.lean ====
/-
  The two running totals across the grid, and the quotient stored at the end of each row group.

  The sixteen grid points are visited row group by row group, the four token blocks of a group in order. The two
  totals are reset at a group's first block, and each point adds its block's sums to them; so after the point at
  position `n` they hold, for each of the group's 8 batch rows, the sum of the row's terms over the first
  `n % 4 + 1` token blocks. This is proved by induction on the position, never by listing the points. After the
  fourth block the totals are the sums over all 1024 tokens, and the stored quotient is the weighted mean.
-/
import proofs.«113493_j4827543241294_2_alg».proof.Proof.PointTerms
import proofs.«113493_j4827543241294_2_alg».proof.Proof.BodyValues

noncomputable section

namespace Cert.KernelIdeal.Totals

open Idealize.ShloMosaic Idealize.ShloMosaic.ValueIdx Idealize.ShloMosaic.TcCoe Idealize.SL.Sem Cert.KernelIdeal Cert.KernelIdeal.Gen
open Cert.KernelIdeal.Terms Cert.KernelIdeal.Blocks Cert.KernelIdeal.Point Cert.WeightedMean

variable (m : (ℓ : Loc nD τ sig) → Buf (Elt Ideal) ℓ) (c : Dev nD)

/-- The terms of the first total for row `p` of the point's row group: score times weight of each of the 1024 tokens. -/
def fwRow (t : Fin cfg0.N) (p : Fin 8) : Fin 1024 → EReal := fun n =>
  score (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (rowGroup t p) n * weight (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (rowGroup t p) n

/-- The terms of the second total: the weight of each token. -/
def wRow (t : Fin cfg0.N) (p : Fin 8) : Fin 1024 → EReal := fun n =>
  weight (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (rowGroup t p) n

/-- Two points of one row group have the same batch rows. -/
theorem rowGroup_congr {t t' : Fin cfg0.N} (h : t.val / 4 = t'.val / 4) (p : Fin 8) : rowGroup t p = rowGroup t' p :=
  Fin.ext (by show t.val / 4 * 8 + p.val = t'.val / 4 * 8 + p.val; rw [h])

theorem fwRow_congr {t t' : Fin cfg0.N} (h : t.val / 4 = t'.val / 4) (p : Fin 8) : fwRow m c t p = fwRow m c t' p := by
  unfold fwRow; rw [rowGroup_congr h p]

theorem wRow_congr {t t' : Fin cfg0.N} (h : t.val / 4 = t'.val / 4) (p : Fin 8) : wRow m c t p = wRow m c t' p := by
  unfold wRow; rw [rowGroup_congr h p]

/-- One point adds to the first total, at row `p`, the sum of the row's terms over the point's block of tokens. -/
theorem update0_at (t : Fin cfg0.N) (p : Fin 8) (prev : Vec Ideal S8x1 .f32) :
    k0_pay2 (F := Ideal) (k0_pay8 (iblk m c 6 t)) (k0_pay9 (iblk m c 0 t) (iblk m c 1 t) (iblk m c 2 t) (iblk m c 3 t) (iblk m c 4 t)) (k0_pay10 (iblk m c 0 t) (iblk m c 1 t) (iblk m c 2 t) (iblk m c 5 t)) prev (ix2 p (0 : Fin 1))
      = prev (ix2 p (0 : Fin 1)) + blockSum (fwRow m c t p) (tokBlock t) :=
  (update0_apply (k0_pay8 (iblk m c 6 t)) (k0_pay9 (iblk m c 0 t) (iblk m c 1 t) (iblk m c 2 t) (iblk m c 3 t) (iblk m c 4 t))
      (k0_pay10 (iblk m c 0 t) (iblk m c 1 t) (iblk m c 2 t) (iblk m c 5 t)) prev p).trans
    (congrArg (prev (ix2 p (0 : Fin 1)) + ·)
      (Finset.sum_congr rfl fun q _ => congrArg₂ (· * ·) (score_at m c t p q) (weight_at m c t p q)))

/-- One point adds to the second total, at row `p`, the sum of the weights over the point's block of tokens. -/
theorem update1_at (t : Fin cfg0.N) (p : Fin 8) (prev : Vec Ideal S8x1 .f32) :
    k0_pay3 (F := Ideal) (k0_pay8 (iblk m c 6 t)) (k0_pay10 (iblk m c 0 t) (iblk m c 1 t) (iblk m c 2 t) (iblk m c 5 t)) prev (ix2 p (0 : Fin 1))
      = prev (ix2 p (0 : Fin 1)) + blockSum (wRow m c t p) (tokBlock t) :=
  (update1_apply (k0_pay8 (iblk m c 6 t)) (k0_pay10 (iblk m c 0 t) (iblk m c 1 t) (iblk m c 2 t) (iblk m c 5 t)) prev p).trans
    (congrArg (prev (ix2 p (0 : Fin 1)) + ·) (Finset.sum_congr rfl fun q _ => weight_at m c t p q))

/-- A running total that held `acc f k` before the point of token block `k` holds `acc f (k + 1)` after it. -/
theorem step (f : Fin 1024 → EReal) (k : Fin 4) {a : EReal} (h : a = acc f k.val) : a + blockSum f k = acc f (k.val + 1) := by
  rw [h, acc_succ]

/-- THE INVARIANT. After the point at position `n` the two running totals hold, at row `p`, the sums of the row's
    terms over the token blocks done so far in the row group: `n % 4 + 1` of them. -/
theorem totals_eq : ∀ (n : ℕ) (hn : n < cfg0.N) (p : Fin 8),
    (outsAt0 m c n hn).2.1 (ix2 p (0 : Fin 1)) = acc (fwRow m c ⟨n, hn⟩ p) (n % 4 + 1)
    ∧ (outsAt0 m c n hn).2.2 (ix2 p (0 : Fin 1)) = acc (wRow m c ⟨n, hn⟩ p) (n % 4 + 1) := by
  intro n
  induction n with
  | zero =>
    intro hn p
    have h0 : (⟨0, hn⟩ : Fin cfg0.N).val % 4 = 0 := rfl
    have h1 : ¬(⟨0, hn⟩ : Fin cfg0.N).val % 4 = 3 := by show ¬(0 : ℕ) % 4 = 3; omega
    have hc0 : cond0_0 (grid0.coords ⟨0, hn⟩) := (hcond0_0 ⟨0, hn⟩).mpr h0
    have hc1 : ¬cond0_1 (grid0.coords ⟨0, hn⟩) := fun h => h1 ((hcond0_1 ⟨0, hn⟩).mp h)
    rw [outsAt0_A m c ⟨0, hn⟩ h0 h1]
    refine ⟨?_, ?_⟩
    · refine (congrFun (Body.total0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) hc0 hc1) _).trans ?_
      refine (update0_at m c ⟨0, hn⟩ p _).trans ?_
      exact step _ (tokBlock ⟨0, hn⟩) (reset0_apply _)
    · refine (congrFun (Body.total1_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) hc0 hc1) _).trans ?_
      refine (update1_at m c ⟨0, hn⟩ p _).trans ?_
      exact step _ (tokBlock ⟨0, hn⟩) (reset1_apply _)
  | succ n ih =>
    intro hn p
    have hN : cfg0.N = 16 := N_0
    by_cases h0 : (n + 1) % 4 = 0
    · have h1 : ¬(⟨n + 1, hn⟩ : Fin cfg0.N).val % 4 = 3 := by show ¬(n + 1) % 4 = 3; omega
      have hc0 : cond0_0 (grid0.coords ⟨n + 1, hn⟩) := (hcond0_0 ⟨n + 1, hn⟩).mpr h0
      have hc1 : ¬cond0_1 (grid0.coords ⟨n + 1, hn⟩) := fun h => h1 ((hcond0_1 ⟨n + 1, hn⟩).mp h)
      rw [outsAt0_A m c ⟨n + 1, hn⟩ h0 h1]
      have hz : (0 : EReal) = acc (fwRow m c ⟨n + 1, hn⟩ p) (tokBlock ⟨n + 1, hn⟩).val := by
        show (0 : EReal) = acc _ ((n + 1) % 4); rw [h0]; rfl
      have hz' : (0 : EReal) = acc (wRow m c ⟨n + 1, hn⟩ p) (tokBlock ⟨n + 1, hn⟩).val := by
        show (0 : EReal) = acc _ ((n + 1) % 4); rw [h0]; rfl
      refine ⟨?_, ?_⟩
      · refine (congrFun (Body.total0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) hc0 hc1) _).trans ?_
        refine (update0_at m c ⟨n + 1, hn⟩ p _).trans ?_
        exact step _ (tokBlock ⟨n + 1, hn⟩) ((reset0_apply _).trans hz)
      · refine (congrFun (Body.total1_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) hc0 hc1) _).trans ?_
        refine (update1_at m c ⟨n + 1, hn⟩ p _).trans ?_
        exact step _ (tokBlock ⟨n + 1, hn⟩) ((reset1_apply _).trans hz')
    · have hprev := ih (Nat.lt_of_succ_lt hn) p
      have hg : (⟨n, Nat.lt_of_succ_lt hn⟩ : Fin cfg0.N).val / 4 = (⟨n + 1, hn⟩ : Fin cfg0.N).val / 4 := by
        show n / 4 = (n + 1) / 4; omega
      have hk : n % 4 + 1 = (tokBlock ⟨n + 1, hn⟩).val := by show n % 4 + 1 = (n + 1) % 4; omega
      rw [fwRow_congr m c hg p, wRow_congr m c hg p, hk] at hprev
      by_cases h1 : (n + 1) % 4 = 3
      · have hc0 : ¬cond0_0 (grid0.coords ⟨n + 1, hn⟩) := fun h => h0 ((hcond0_0 ⟨n + 1, hn⟩).mp h)
        have hc1 : cond0_1 (grid0.coords ⟨n + 1, hn⟩) := (hcond0_1 ⟨n + 1, hn⟩).mpr h1
        rw [outsAt0_C m c ⟨n + 1, hn⟩ h0 h1]
        refine ⟨?_, ?_⟩
        · refine (congrFun (Body.total0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2 hc0 hc1) _).trans ?_
          refine (update0_at m c ⟨n + 1, hn⟩ p _).trans ?_
          exact step _ (tokBlock ⟨n + 1, hn⟩) hprev.1
        · refine (congrFun (Body.total1_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2 hc0 hc1) _).trans ?_
          refine (update1_at m c ⟨n + 1, hn⟩ p _).trans ?_
          exact step _ (tokBlock ⟨n + 1, hn⟩) hprev.2
      · have hc0 : ¬cond0_0 (grid0.coords ⟨n + 1, hn⟩) := fun h => h0 ((hcond0_0 ⟨n + 1, hn⟩).mp h)
        have hc1 : ¬cond0_1 (grid0.coords ⟨n + 1, hn⟩) := fun h => h1 ((hcond0_1 ⟨n + 1, hn⟩).mp h)
        rw [outsAt0_B m c ⟨n + 1, hn⟩ h0 h1]
        refine ⟨?_, ?_⟩
        · refine (congrFun (Body.total0_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2 hc0 hc1) _).trans ?_
          refine (update0_at m c ⟨n + 1, hn⟩ p _).trans ?_
          exact step _ (tokBlock ⟨n + 1, hn⟩) hprev.1
        · refine (congrFun (Body.total1_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2 hc0 hc1) _).trans ?_
          refine (update1_at m c ⟨n + 1, hn⟩ p _).trans ?_
          exact step _ (tokBlock ⟨n + 1, hn⟩) hprev.2

/-- At the last point of a row group the output block holds, at row `p`, the weighted mean of batch row
    `rowGroup t p`: the quotient of the two totals after all four token blocks. -/
theorem out_eq (t : Fin cfg0.N) (h3 : t.val % 4 = 3) (p : Fin 8) :
    (outsAt0 m c t.val t.isLt).1 (ix2 p (0 : Fin 1)) = mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix1 (rowGroup t p)) := by
  have h0 : ¬t.val % 4 = 0 := by omega
  have hc0 : ¬cond0_0 (grid0.coords t) := fun h => h0 ((hcond0_0 t).mp h)
  have hc1 : cond0_1 (grid0.coords t) := (hcond0_1 t).mpr h3
  have hT := totals_eq m c t.val t.isLt p
  rw [outsAt0_C m c t h0 h3] at hT ⊢
  have e0 := (congrFun (Body.total0_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 hc0 hc1) (ix2 p (0 : Fin 1))).symm.trans hT.1
  have e1 := (congrFun (Body.total1_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 hc0 hc1) (ix2 p (0 : Fin 1))).symm.trans hT.2
  refine (congrFun (Body.quotient_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 hc0 hc1) (ix2 p (0 : Fin 1))).trans ?_
  refine (quotient_apply _ _ _).trans ?_
  rw [e0, e1, h3, acc_four, acc_four]
  rfl

end Cert.KernelIdeal.Totals

end
-- ==== Proof.FinalArray.lean ====
/-
  From the blocks written back to the output array, through the host's last operation, to the kernel's run.

  The output is a column of 32 entries written back in blocks of 8, one block per row group, by the group's last
  point; those four blocks cover the column, so the column ends holding the weighted mean of every batch row. The
  host then lists the column as a vector of 32 entries, which is the result.
-/
import proofs.«113493_j4827543241294_2_alg».proof.Proof.RunningTotals
import Idealize.ShloMosaic.Lib.StableHlo.Run

noncomputable section

namespace Cert.KernelIdeal.Final

open Idealize.ShloMosaic Idealize.ShloMosaic.ValueIdx Idealize.ShloMosaic.TcCoe Idealize.SL.Sem Cert.KernelIdeal Cert.KernelIdeal.Gen
open Idealize.ShloMosaic.Pipeline (Dat)
open Cert.KernelIdeal.Blocks Cert.KernelIdeal.Totals Cert.WeightedMean

variable (m : (ℓ : Loc nD τ sig) → Buf (Elt Ideal) ℓ) (ρ : Dev nD → PrngReg)

/-- What the kernel's [32, 1] output array ends holding: row `b` is the weighted mean of batch row `b`. -/
abbrev column (c : Dev nD) : S32x1.Idx → EReal := fun i => mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix1 (i 0))

/-- The output's block index at a point: the point's row group, and the one column. -/
theorem idx_facts7 : ∀ t : Fin cfg0.N, win0_7.index t (0 : Fin 2) = t.val / 4 ∧ win0_7.index t (1 : Fin 2) = 0 :=
  (by decide +kernel : ∀ t : Fin grid0.N, _)

/-- What the last point of a row group writes back is the block of `column` its rectangle names. -/
theorem flushed_eq (c : Dev nD) (t : Fin cfg0.N) (hf : (cfg0.win 7).flush t = true) :
    (dats m 0 c).flushed 7 t = ((cfg0.win 7).blk t).view.read (Elt Ideal) (column m c) := by
  have h3 : t.val % 4 = 3 := (flush0_7 t).mp hf
  show (cfg0.win 7).cut (grid0.coords t) ((dats m 0 c).after 7 t) = _
  rw [after0_7]
  obtain ⟨e0, e1⟩ := idx_facts7 t
  funext j
  have hj0 : (j 0).val < 8 := (j 0).isLt
  have hj1 : (j 1).val < 1 := (j 1).isLt
  show (outsAt0 m c t.val t.isLt).1 j = column m c (((cfg0.win 7).blk t).view.emb j)
  have hj : (outsAt0 m c t.val t.isLt).1 j = (outsAt0 m c t.val t.isLt).1 (ix2 (⟨(j 0).val, hj0⟩ : Fin 8) (0 : Fin 1)) :=
    congrArg _ (funext fun a => Fin.ext (by
      match a with
      | ⟨0, _⟩ => rfl
      | ⟨1, _⟩ => show (j 1).val = 0; omega))
  rw [hj, out_eq m c t h3]
  show mean _ _ _ _ _ _ _ _ _ (ix1 (rowGroup t ⟨(j 0).val, hj0⟩)) = mean _ _ _ _ _ _ _ _ _ (ix1 ((((cfg0.win 7).blk t).view.emb j) 0))
  refine congrArg _ (congrArg ix1 (Fin.ext ?_))
  show t.val / 4 * 8 + (j 0).val = win0_7.index t (0 : Fin 2) * 8 + 1 * (j 0).val
  rw [e0]; omega

/-- An index of the output array is in point `t`'s block iff each coordinate is in the block's range on its axis. -/
theorem mem_blk7 (t : Fin cfg0.N) (i : S32x1.Idx) :
    i ∈ ((cfg0.win 7).blk t).view.set ↔ ∀ a : Fin 2, win0_7.index t a * S8x1.size a ≤ (i a).val ∧ (i a).val < win0_7.index t a * S8x1.size a + S8x1.size a := by
  show i ∈ ((View.whole main_v7).slice (win0_7.rect t)).set ↔ _
  rw [View.set_slice_whole, Rect.mem_set_unit]
  exact Iff.rfl

/-- The output array after the run: every row `b` is written back by the last point of its row group `b / 8`. -/
theorem final7 (c : Dev nD) : (dats m 0 c).arrAt 7 cfg0.N = column m c :=
  (dats m 0 c).arrAt_eq_of_cover 7 (column m c) (flushed_eq m c) fun i => by
    have hi0 : (i 0).val < 32 := (i 0).isLt
    have hi1 : (i 1).val < 1 := (i 1).isLt
    have hN : cfg0.N = 16 := N_0
    have ht : (i 0).val / 8 * 4 + 3 < cfg0.N := by omega
    obtain ⟨e0, e1⟩ := idx_facts7 ⟨(i 0).val / 8 * 4 + 3, ht⟩
    refine ⟨⟨(i 0).val / 8 * 4 + 3, ht⟩, (flush0_7 _).mpr (by show ((i 0).val / 8 * 4 + 3) % 4 = 3; omega), ?_⟩
    rw [mem_blk7]
    intro a
    match a with
    | ⟨0, _⟩ =>
      show win0_7.index ⟨(i 0).val / 8 * 4 + 3, ht⟩ (0 : Fin 2) * 8 ≤ (i 0).val ∧ (i 0).val < win0_7.index ⟨(i 0).val / 8 * 4 + 3, ht⟩ (0 : Fin 2) * 8 + 8
      rw [e0]; show ((i 0).val / 8 * 4 + 3) / 4 * 8 ≤ (i 0).val ∧ (i 0).val < ((i 0).val / 8 * 4 + 3) / 4 * 8 + 8; omega
    | ⟨1, _⟩ =>
      show win0_7.index ⟨(i 0).val / 8 * 4 + 3, ht⟩ (1 : Fin 2) * 1 ≤ (i 1).val ∧ (i 1).val < win0_7.index ⟨(i 0).val / 8 * 4 + 3, ht⟩ (1 : Fin 2) * 1 + 1
      rw [e1]; omega

/-- The column listed as a vector of 32 entries is the weighted mean itself. -/
theorem column_flat (c : Dev nD) : shapeCast S32 (column m c) shapeCasts_S32x1_S32 = mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨b, rfl⟩ : ∃ b : Fin 32, i = ix1 b := ⟨i 0, eq_ix1 i⟩
  exact shapeCast_apply (column m c) _ (ix1 b) (ix2 b (0 : Fin 1)) (by
    rw [Shape.rowMajor_val_one, Shape.rowMajor_val_two]; show b.val * 1 + 0 = b.val; omega)

/-- The host operation after the region lists the output column as the result vector. -/
theorem tail_eq (c : Dev nD) :
    Pipeline.afterTail₀ cfgs (dats m) 0 (V0 m) [hostOps1] c main_v8 = mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.tc.devRef main_v7)
      = column m c := (Pipeline.withArrays_arr spec0 launch0.win.arr_inj c _ _ 7).trans (final7 m c)
  funext i
  show shapeCast S32 (Pipeline.withArrays (cfgs 0).spec c (V0 m c) (fun w => (dats m 0 c).arrAt w (cfgs 0).N) (Proc.tc.devRef main_v7))
    shapeCasts_S32x1_S32 i = _
  rw [e, column_flat]

/-- THE KERNEL'S RUN, READ: every weakly fair execution ends with the result vector at the weighted mean of the
    argument arrays and the arguments unchanged. -/
theorem run : θ_run defs (onTc (τ := τ) (main (F := Ideal))) ⟨m, fun _ => 0, ρ⟩ fun r => ∀ c : Dev nD,
      r.2.mem ((c.tc : Thread nD τ).loc main_v8) = mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Final

end
-- ==== Proof.lean ====
/-
  The five claims for a kernel that scores every token of a batch with one two-layer perceptron, weights it with a
  second one through the logistic function, and returns, per batch row, the weighted mean of the scores.

  The kernel joins the two hidden layers into one matrix product and sums the 1024 tokens of a row four blocks of
  256 at a time across its grid; the reference applies the two perceptrons separately and sums each row at once.
  On the extended reals both are the same function of the nine argument arrays (`Cert.WeightedMean.mean`): a
  column of the joined product is a column of one of the two hidden layers, and a sum taken block by block from zero
  is the sum, addition being commutative and associative there without any finiteness condition. The ideal pass
  rewrote nothing, so the kernel's idealization is its own text.
-/
import proofs.«113493_j4827543241294_2_alg».proof.Defs
import proofs.«113493_j4827543241294_2_alg».proof.Proof.Gen.Kernel
import proofs.«113493_j4827543241294_2_alg».proof.Proof.Gen.Kernel.Skeleton
import proofs.«113493_j4827543241294_2_alg».proof.Proof.Gen.Kernel.Launch
import proofs.«113493_j4827543241294_2_alg».proof.Proof.Gen.Kernel.Points
import proofs.«113493_j4827543241294_2_alg».proof.Proof.Gen.Kernel.Frame
import proofs.«113493_j4827543241294_2_alg».proof.Proof.Gen.KernelIdeal
import proofs.«113493_j4827543241294_2_alg».proof.Proof.Gen.KernelIdeal.Skeleton
import proofs.«113493_j4827543241294_2_alg».proof.Proof.Gen.KernelIdeal.Launch
import proofs.«113493_j4827543241294_2_alg».proof.Proof.Gen.KernelIdeal.Points
import proofs.«113493_j4827543241294_2_alg».proof.Proof.Gen.KernelIdeal.Frame
import proofs.«113493_j4827543241294_2_alg».proof.Proof.Gen.ReferenceIdeal
import proofs.«113493_j4827543241294_2_alg».proof.Proof.Gen.Pre_finite_inputs
import proofs.«113493_j4827543241294_2_alg».proof.Proof.Gen.ReferenceIdeal.Run
import proofs.«113493_j4827543241294_2_alg».proof.Proof.Gen.ReferenceIdeal.Read
import proofs.«113493_j4827543241294_2_alg».proof.Proof.ReferenceMean
import proofs.«113493_j4827543241294_2_alg».proof.Proof.FinalArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference is a straight line of host operations: its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both idealized programs end with the weighted mean of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.WeightedMean.mean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v28_eq, Cert.ReferenceIdeal.RefValue.last_stage_eq_mean,
    a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
